-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S1600000 .f32) (main_arg3 : FVec F S4x128x128 .f32) (main_arg4 : FVec F S4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg4
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S4x128x128 : Shape := ⟨3, ![4, 128, 128]⟩
abbrev S4x128 : Shape := ⟨2, ![4, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128x128 : Shape := ⟨3, ![1, 128, 128]⟩
abbrev S128x128 : Shape := ⟨2, ![128, 128]⟩
abbrev S5000x128 : Shape := ⟨2, ![5000, 128]⟩
abbrev S1600000x128 : Shape := ⟨2, ![1600000, 128]⟩
abbrev S1x128 : Shape := ⟨2, ![1, 128]⟩
abbrev S128 : Shape := ⟨1, ![128]⟩
abbrev S5000x1 : Shape := ⟨2, ![5000, 1]⟩

abbrev nBuf : Space → Nat
  | .hbm => 132
  | .vmem => 64
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S4x128x128, .f32⟩
  | 4 => ⟨S4x128, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .f32⟩
  | 16 => ⟨S100000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000, .f32⟩
  | 26 => ⟨S1600000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S100000, .f32⟩
  | 38 => ⟨S100000x1, .f32⟩
  | 39 => ⟨S4x128x128, .bf16⟩
  | 40 => ⟨S1x128x128, .bf16⟩
  | 41 => ⟨S128x128, .bf16⟩
  | 42 => ⟨S100000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S1x128, .f32⟩
  | 60 => ⟨S128, .f32⟩
  | 61 => ⟨S1x128, .f32⟩
  | 62 => ⟨S100000x128, .f32⟩
  | 63 => ⟨S1x128x128, .bf16⟩
  | 64 => ⟨S128x128, .bf16⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S1600000x1, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S1x128x128, .bf16⟩
  | 87 => ⟨S128x128, .bf16⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S1600000x1, .f32⟩
  | 99 => ⟨S1600000x128, .f32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S1x128, .f32⟩
  | 106 => ⟨S128, .f32⟩
  | 107 => ⟨S1x128, .f32⟩
  | 108 => ⟨S100000x128, .f32⟩
  | 109 => ⟨S1x128x128, .bf16⟩
  | 110 => ⟨S128x128, .bf16⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S1600000x1, .f32⟩
  | 122 => ⟨S1600000x128, .f32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .bf16⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .bf16⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x1, .f32⟩
  | .local _ .vmem, ⟨42, _⟩ => ⟨S5000x1, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .bf16⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x1, .f32⟩
  | .local _ .vmem, ⟨58, _⟩ => ⟨S5000x1, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_7 : Ref sig .tc := ⟨.hbm, 66, rfl⟩
abbrev main_v52 : Ref sig .tc := ⟨.hbm, 67, rfl⟩
abbrev main_v53 : Ref sig .tc := ⟨.hbm, 68, rfl⟩
abbrev main_c_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_c_10 : Ref sig .tc := ⟨.hbm, 89, rfl⟩
abbrev main_v72 : Ref sig .tc := ⟨.hbm, 90, rfl⟩
abbrev main_v73 : Ref sig .tc := ⟨.hbm, 91, rfl⟩
abbrev main_c_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_12 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_c_13 : Ref sig .tc := ⟨.hbm, 112, rfl⟩
abbrev main_v92 : Ref sig .tc := ⟨.hbm, 113, rfl⟩
abbrev main_v93 : Ref sig .tc := ⟨.hbm, 114, rfl⟩
abbrev main_c_14 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_15 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg5_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem5_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S100000_S100000x1 : S100000.ShapeCasts S100000x1
  bitsLt_bf16_f32 : FTy.bits .bf16 < FTy.bits .f32
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S5000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v68) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v68) S5000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v88) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v88) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v104) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v27) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v107) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v88) S5000x128.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v108) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S4x128x128 : Shape := ⟨3, ![4, 128, 128]⟩
abbrev S4x128 : Shape := ⟨2, ![4, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1600000x128 : Shape := ⟨2, ![1600000, 128]⟩
abbrev S100000x1 : Shape := ⟨2, ![100000, 1]⟩
abbrev S1x128 : Shape := ⟨2, ![1, 128]⟩
abbrev S128 : Shape := ⟨1, ![128]⟩

abbrev nBuf : Space → Nat
  | .hbm => 166
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S4x128x128, .f32⟩
  | 4 => ⟨S4x128, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .f32⟩
  | 16 => ⟨S100000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000, .f32⟩
  | 26 => ⟨S1600000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S100000, .f32⟩
  | 38 => ⟨S1x128x128, .f32⟩
  | 39 => ⟨S128x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S1600000x1, .f32⟩
  | 51 => ⟨S1600000x128, .f32⟩
  | 52 => ⟨S1600000x128, .f32⟩
  | 53 => ⟨S_, .f32⟩
  | 54 => ⟨S100000x128, .f32⟩
  | 55 => ⟨S1600000x1, .i32⟩
  | 56 => ⟨S100000x128, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S1x128x128, .f32⟩
  | 71 => ⟨S128x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S1600000x1, .f32⟩
  | 83 => ⟨S1600000x128, .f32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S1x128x128, .f32⟩
  | 103 => ⟨S128x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S1600000x1, .f32⟩
  | 115 => ⟨S1600000x128, .f32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000x1, .f32⟩
  | 122 => ⟨S100000x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x128, .f32⟩
  | 6 => ⟨S1x128x128, .f32⟩
  | 7 => ⟨S128x128, .f32⟩
  | 8 => ⟨S100000x128, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S1600000x1, .f32⟩
  | 19 => ⟨S1600000x128, .f32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S100000x1, .f32⟩
  | 26 => ⟨S100000x128, .f32⟩
  | 27 => ⟨S100000x128, .f32⟩
  | 28 => ⟨S100000x128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call0_cst : Ref sig .tc := ⟨.hbm, 66, rfl⟩
abbrev main_call0_v0 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_7 : Ref sig .tc := ⟨.hbm, 73, rfl⟩
abbrev main_v57 : Ref sig .tc := ⟨.hbm, 74, rfl⟩
abbrev main_v58 : Ref sig .tc := ⟨.hbm, 75, rfl⟩
abbrev main_c_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_call1_cst : Ref sig .tc := ⟨.hbm, 98, rfl⟩
abbrev main_call1_v0 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_10 : Ref sig .tc := ⟨.hbm, 105, rfl⟩
abbrev main_v84 : Ref sig .tc := ⟨.hbm, 106, rfl⟩
abbrev main_v85 : Ref sig .tc := ⟨.hbm, 107, rfl⟩
abbrev main_c_11 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_12 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_call2_cst : Ref sig .tc := ⟨.hbm, 130, rfl⟩
abbrev main_call2_v0 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_c_13 : Ref sig .tc := ⟨.hbm, 137, rfl⟩
abbrev main_v111 : Ref sig .tc := ⟨.hbm, 138, rfl⟩
abbrev main_v112 : Ref sig .tc := ⟨.hbm, 139, rfl⟩
abbrev main_c_14 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_15 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_call3_cst : Ref sig .tc := ⟨.hbm, 162, rfl⟩
abbrev main_call3_v0 : Ref sig .tc := ⟨.hbm, 163, rfl⟩
abbrev main_v133 : Ref sig .tc := ⟨.hbm, 164, rfl⟩
abbrev main_v134 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S4x128x128_S1x128x128_0_0_0 : S4x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.RefAgg.lean ====
/-
  The aggregation of a feature matrix over the graph's edges, as the reference spells it, kept as ONE function.

  For the edge list (sources, destinations: the two rows of the index array) and the edge weights, the normalised
  weight of edge e is norm e = dinv (src e) * weight e * dinv (dst e) with dinv = (in-degree weight + 1)^(-1/2).
  The aggregation of t : [100000, 128] gathers row src e of t for every edge e, scales it by norm e, and adds it into
  row dst e of a zero matrix. Here it is written with the reference's own stages for the zero matrix, the two index
  columns and the broadcast normalised weights, so that the reference's four layers all use this one function; both
  programs compute it by the same host operations, and no proof opens it.
-/
import proofs.«145220_j17600775979603_1_alg».proof.Proof.Gen.ReferenceIdeal.Read

noncomputable section

namespace Cert.ReferenceIdeal.Graph

open Cert.ReferenceIdeal Cert.ReferenceIdeal.Gen Cert.ReferenceIdeal.Read Idealize.ShloMosaic

/-- Gather the source rows of `t`, scale each by its edge's normalised weight, add into the destination rows. -/
def agg (x1 : (⟨S2x1600000, .i32⟩ : BufTy).Contents (Elt Ideal)) (x2 : (⟨S1600000, .f32⟩ : BufTy).Contents (Elt Ideal))
    (t : FVec Ideal S100000x128 .f32) : FVec Ideal S100000x128 .f32 :=
  Host.scatterAdd scatter_S100000x128_S1600000x1_S1600000x128_1_0_0_1 (val_main_v40 (F := Ideal)) (val_main_v41 (F := Ideal) x1)
    (mulf (Host.gather gather_S100000x128_S1600000x1_S1600000x128_1_0_n_n_0_1_1128 t (val_main_v35 (F := Ideal) x1))
      (val_main_v38 (F := Ideal) x1 x2))

/-- The rectifier's floor: the zero word, never evaluated. -/
abbrev floor0 : EReal := Ideal.ofBits .f32 0x00000000#32

end Cert.ReferenceIdeal.Graph

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibRowsProduct.lean ====
/-
  The product of two matrices of extended reals as ONE function of its entries, and the ways a program
  spells it.

  `prod M K N x w` at the entry (r, c) is the sum over k < K of x (r, k) * w (k, c). On the extended reals this sum
  is a sum in a commutative monoid, so it does not depend on an order or a grouping, and nothing needs to be finite.

  * the host's `dot_general` with the plain dimension numbers is `prod`;
  * a `tpu.matmul` of the two operands cast to bf16, into the zero accumulator, is `prod` of the operands
    themselves (at the exact instance a change of float format is the identity);
  * ROW LOCALITY: an entry of the product reads one row of the left operand and one column of the right one, so
    the product of a block of rows with the whole right operand, at an entry of the block, is the product of the
    whole matrices at the entry the block's position sends it to. This is what lets a kernel tile the rows of the
    left operand over a grid and still compute the one product.
  * a row vector [1, N] added to every row (`addRow`), as the kernel spells it (a broadcast along the rows and a sum);
  * the hyperbolic tangent applied entry by entry is the same function whether the kernel's or the host's
    operation spells it.
-/
import Idealize.ShloMosaic.PureOps.Ideal.Laws
import Idealize.ShloMosaic.Lib.ValueIdx
import Idealize.ShloMosaic.Lib.Pipeline.Value
import proofs.«145220_j17600775979603_1_alg».proof.Proof.LibPlainDot

noncomputable section

namespace RowsProduct

open Idealize.ShloMosaic Idealize.ShloMosaic.ValueIdx

variable (M K N : Nat)

/-- The matrix product, entry by entry: at (r, c) the sum over k of x (r, k) * w (k, c). -/
def prod (x : FVec Ideal ⟨2, ![M, K]⟩ .f32) (w : FVec Ideal ⟨2, ![K, N]⟩ .f32) : FVec Ideal ⟨2, ![M, N]⟩ .f32 :=
  fun j => ∑ k : Fin K, (x (ix2 (j 0) k) : EReal) * w (ix2 k (j 1))

/-- The host's `dot_general` with plain dimension numbers is the matrix product. -/
theorem hostDot_eq (x : FVec Ideal ⟨2, ![M, K]⟩ .f32) (w : FVec Ideal ⟨2, ![K, N]⟩ .f32) :
    Host.dotGeneral (DotDims.plain M K N) none x w = prod M K N x w :=
  funext fun j => PlainDot.dotGeneral_apply M K N none .single x w j

/-- A `tpu.matmul` of the operands cast to bf16, into the zero accumulator, is the matrix product of the operands. -/
theorem matmulBf16_eq (x : FVec Ideal ⟨2, ![M, K]⟩ .f32) (w : FVec Ideal ⟨2, ![K, N]⟩ .f32)
    (h : FTy.bf16.bits < FTy.f32.bits) :
    matmul (DotDims.plain M K N) none (truncf .bf16 x h) (truncf .bf16 w h) (constant ⟨2, ![M, N]⟩ .f32 0x00000000#32)
      = prod M K N x w :=
  funext fun j => PlainDot.matmul_zero_apply M K N none (truncf .bf16 x h) (truncf .bf16 w h) j

/-- ROW LOCALITY. If row `j 0` of a block `xb` is row `i 0` of `X`, and column `j 1` of `wb` is column `i 1` of `W`,
    the product of the blocks at `j` is the product of the matrices at `i`. -/
theorem prod_rows {Mb Nb : Nat} (X : FVec Ideal ⟨2, ![M, K]⟩ .f32) (W : FVec Ideal ⟨2, ![K, N]⟩ .f32)
    (xb : FVec Ideal ⟨2, ![Mb, K]⟩ .f32) (wb : FVec Ideal ⟨2, ![K, Nb]⟩ .f32)
    (j : (⟨2, ![Mb, Nb]⟩ : Shape).Idx) (i : (⟨2, ![M, N]⟩ : Shape).Idx)
    (hx : ∀ k : Fin K, xb (ix2 (j 0) k) = X (ix2 (i 0) k)) (hw : ∀ k : Fin K, wb (ix2 k (j 1)) = W (ix2 k (i 1))) :
    prod Mb K Nb xb wb j = prod M K N X W i :=
  Finset.sum_congr rfl fun k _ => by rw [hx k, hw k]

/-- A row vector [1, N] added to every row of a matrix [M, N]. -/
def addRow (a : FVec Ideal ⟨2, ![M, N]⟩ .f32) (b : FVec Ideal ⟨2, ![1, N]⟩ .f32) : FVec Ideal ⟨2, ![M, N]⟩ .f32 :=
  fun i => (a i : EReal) + b (ix2 (0 : Fin 1) (i 1))

/-- The kernel's spelling of adding a row vector: the row broadcast along the rows, then an entrywise sum. -/
theorem addf_broadcastTo_eq (a : FVec Ideal ⟨2, ![M, N]⟩ .f32) (b : FVec Ideal ⟨2, ![1, N]⟩ .f32) (hN : N ≠ 1)
    (h : (⟨2, ![1, N]⟩ : Shape).Broadcasts ⟨2, ![M, N]⟩) :
    addf a (broadcastTo ⟨2, ![M, N]⟩ b h) = addRow M N a b := by
  funext i
  show (a i : EReal) + broadcastTo ⟨2, ![M, N]⟩ b h i = (a i : EReal) + b (ix2 (0 : Fin 1) (i 1))
  congr 1
  refine broadcastTo_apply b h i (ix2 (0 : Fin 1) (i 1)) fun a => ?_
  match a with
  | ⟨0, _⟩ => show (0 : Nat) = if (1 : Nat) = 1 then 0 else _; rw [if_pos rfl]
  | ⟨1, _⟩ => show (i 1).val = if N = 1 then 0 else (i 1).val; rw [if_neg hN]

/-- Row locality of `addRow`: an entry of a block of rows plus its bias entry is the whole matrix's entry plus the
    same bias entry, when the two summands agree. -/
theorem addRow_rows {Mb : Nat} (A : FVec Ideal ⟨2, ![M, N]⟩ .f32) (B : FVec Ideal ⟨2, ![1, N]⟩ .f32)
    (ab : FVec Ideal ⟨2, ![Mb, N]⟩ .f32) (bb : FVec Ideal ⟨2, ![1, N]⟩ .f32)
    (j : (⟨2, ![Mb, N]⟩ : Shape).Idx) (i : (⟨2, ![M, N]⟩ : Shape).Idx)
    (ha : ab j = A i) (hb : bb (ix2 (0 : Fin 1) (j 1)) = B (ix2 (0 : Fin 1) (i 1))) :
    addRow Mb N ab bb j = addRow M N A B i := by
  show (ab j : EReal) + bb (ix2 (0 : Fin 1) (j 1)) = (A i : EReal) + B (ix2 (0 : Fin 1) (i 1))
  rw [ha, hb]

/-- The hyperbolic tangent entry by entry: the kernel's operation and the host's are one function. -/
theorem tanh_eq_hostTanh {s : Shape} (x : FVec Ideal s .f32) : tanh x = Host.tanh x := rfl

end RowsProduct

end
-- ==== Proof.Layer.lean ====
/-
  One graph-convolution layer on the extended reals, as one function of its entries.

  For node features h : [100000, 128], weights w : [128, 128], a bias b : [128], a self-loop coefficient sn : [100000]
  and an aggregation A of a feature matrix over the graph's edges (kept abstract: it is never opened), the layer is

      layer A sn w b z h (r, c) = max (A t (r, c) + (t (r, c) * sn r + b c)) z + h (r, c),   t = h · w,

  the transformed features t aggregated over the incoming edges, plus the self-loop term and the bias, rectified at z
  and added to the layer's input (the residual). The three summands under the maximum may be grouped either way:
  addition on the extended reals is associative whatever the summands, infinite ones included, so no entry needs
  to be finite.
-/
import Idealize.ShloMosaic.PureOps.Ideal.Laws
import Idealize.ShloMosaic.Lib.ValueIdx
import proofs.«145220_j17600775979603_1_alg».proof.Proof.LibRowsProduct

noncomputable section

namespace Gcn

open Idealize.ShloMosaic Idealize.ShloMosaic.ValueIdx

/-- Node features: 100000 nodes, 128 features each. -/
abbrev NF : Shape := ⟨2, ![100000, 128]⟩
/-- A layer's weights. -/
abbrev FF : Shape := ⟨2, ![128, 128]⟩

/-- The layer at the entry (r, c): the aggregated, self-looped and biased transform of h, rectified at z, plus h. -/
def layer (A : FVec Ideal NF .f32 → FVec Ideal NF .f32) (sn : FVec Ideal ⟨1, ![100000]⟩ .f32)
    (w : FVec Ideal FF .f32) (b : FVec Ideal ⟨1, ![128]⟩ .f32) (z : EReal) (h : FVec Ideal NF .f32) :
    FVec Ideal NF .f32 :=
  fun j => max ((A (RowsProduct.prod 100000 128 128 h w) j : EReal)
      + ((RowsProduct.prod 100000 128 128 h w j : EReal) * sn (ix1 (j 0)) + b (ix1 (j 1)))) z + h j

/-- The entrywise half of a layer, as a kernel finds its operands: the transform t, its aggregation, the self-loop
    coefficient as a column [100000, 1], the bias as a row [1, 128], the layer's input h. -/
def combine (t agg : FVec Ideal NF .f32) (sn : FVec Ideal ⟨2, ![100000, 1]⟩ .f32) (b : FVec Ideal ⟨2, ![1, 128]⟩ .f32)
    (z : EReal) (h : FVec Ideal NF .f32) : FVec Ideal NF .f32 :=
  fun i => max ((agg i : EReal) + ((t i : EReal) * sn (ix2 (i 0) (0 : Fin 1)) + b (ix2 (0 : Fin 1) (i 1)))) z + h i

/-- The other grouping of the three summands under the maximum gives the same entry. -/
theorem regroup (a t s b z h : EReal) : max ((a + t * s) + b) z + h = max (a + (t * s + b)) z + h := by
  rw [add_assoc]

end Gcn

end
-- ==== Proof.KernelHost.lean ====
/-
  The kernel's host side, named: what the first stretch of host operations leaves, and the pieces every layer reads.

  Before its first pallas_call the kernel's @main computes, by the very operations the reference uses, the source
  and destination index vectors of the edges, the normalised edge weights, and the self-loop coefficient (the
  inverse square root of the weighted in-degree plus one, squared), which it keeps as a column [100000, 1]; it
  also changes the float format of the four weight matrices (the identity on the extended reals) and cuts out the
  first one. These values stay in their buffers to the end: no later operation and no pallas_call writes them.
  Layer l then reads its weight matrix (slice l of the converted weights) and its bias row (row l of the biases,
  as [1, 128]); one step of the kernel is the entrywise combination of the row-tiled product with its aggregation.
-/
import proofs.«145220_j17600775979603_1_alg».proof.Proof.Gen.KernelIdeal.Frame
import proofs.«145220_j17600775979603_1_alg».proof.Proof.Gen.ReferenceIdeal.Read
import proofs.«145220_j17600775979603_1_alg».proof.Proof.RefAgg
import proofs.«145220_j17600775979603_1_alg».proof.Proof.Layer
import Idealize.ShloMosaic.Lib.StableHlo.Run
set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## The pieces -/

/-- The edges' source and destination vectors, the normalised edge weights and the self-loop coefficient, by the
    reference's own stage functions of the index array and the edge weights. -/
abbrev src (a1 : S2x1600000.Idx → BitVec 32) : S1600000.Idx → BitVec 32 := Cert.ReferenceIdeal.Read.val_main_v1 (F := Ideal) a1
abbrev dst (a1 : S2x1600000.Idx → BitVec 32) : S1600000.Idx → BitVec 32 := Cert.ReferenceIdeal.Read.val_main_v3 (F := Ideal) a1
abbrev norm (a1 : S2x1600000.Idx → BitVec 32) (a2 : S1600000.Idx → EReal) : S1600000.Idx → EReal :=
  Cert.ReferenceIdeal.Read.val_main_v25 (F := Ideal) a1 a2
abbrev selfCoef (a1 : S2x1600000.Idx → BitVec 32) (a2 : S1600000.Idx → EReal) : S100000.Idx → EReal :=
  Cert.ReferenceIdeal.Read.val_main_v26 (F := Ideal) a1 a2

/-- The self-loop coefficient as the column the combine calls read. -/
def selfCol (a1 : S2x1600000.Idx → BitVec 32) (a2 : S1600000.Idx → EReal) : S100000x1.Idx → EReal :=
  shapeCast S100000x1 (selfCoef a1 a2) shapeCasts_S100000_S100000x1

/-- The weights after the change of float format. -/
def weights (a3 : S4x128x128.Idx → EReal) : S4x128x128.Idx → EReal := truncf (F := Ideal) .bf16 a3 bitsLt_bf16_f32

/-- Layer 1's weight matrix and bias row. -/
def w0 (a3 : S4x128x128.Idx → EReal) : S128x128.Idx → EReal :=
  shapeCast S128x128 (extractStridedSlice S1x128x128 ![0, 0, 0] (weights a3) slices_S4x128x128_S1x128x128_0_0_0) shapeCasts_S1x128x128_S128x128
def bias0 (a4 : S4x128.Idx → EReal) : S1x128.Idx → EReal :=
  shapeCast S1x128 (shapeCast S128 (extractStridedSlice S1x128 ![0, 0] a4 slices_S4x128_S1x128_0_0) shapeCasts_S1x128_S128) shapeCasts_S128_S1x128
/-- Layer 2's weight matrix and bias row. -/
def w1 (a3 : S4x128x128.Idx → EReal) : S128x128.Idx → EReal :=
  shapeCast S128x128 (extractStridedSlice S1x128x128 ![1, 0, 0] (weights a3) slices_S4x128x128_S1x128x128_1_0_0) shapeCasts_S1x128x128_S128x128
def bias1 (a4 : S4x128.Idx → EReal) : S1x128.Idx → EReal :=
  shapeCast S1x128 (shapeCast S128 (extractStridedSlice S1x128 ![1, 0] a4 slices_S4x128_S1x128_1_0) shapeCasts_S1x128_S128) shapeCasts_S128_S1x128
/-- Layer 3's weight matrix and bias row. -/
def w2 (a3 : S4x128x128.Idx → EReal) : S128x128.Idx → EReal :=
  shapeCast S128x128 (extractStridedSlice S1x128x128 ![2, 0, 0] (weights a3) slices_S4x128x128_S1x128x128_2_0_0) shapeCasts_S1x128x128_S128x128
def bias2 (a4 : S4x128.Idx → EReal) : S1x128.Idx → EReal :=
  shapeCast S1x128 (shapeCast S128 (extractStridedSlice S1x128 ![2, 0] a4 slices_S4x128_S1x128_2_0) shapeCasts_S1x128_S128) shapeCasts_S128_S1x128
/-- Layer 4's weight matrix and bias row. -/
def w3 (a3 : S4x128x128.Idx → EReal) : S128x128.Idx → EReal :=
  shapeCast S128x128 (extractStridedSlice S1x128x128 ![3, 0, 0] (weights a3) slices_S4x128x128_S1x128x128_3_0_0) shapeCasts_S1x128x128_S128x128
def bias3 (a4 : S4x128.Idx → EReal) : S1x128.Idx → EReal :=
  shapeCast S1x128 (shapeCast S128 (extractStridedSlice S1x128 ![3, 0] a4 slices_S4x128_S1x128_3_0) shapeCasts_S1x128_S128) shapeCasts_S128_S1x128

/-- One layer as the kernel computes it: the product, its aggregation over the edges, the entrywise combination. -/
def step (a1 : S2x1600000.Idx → BitVec 32) (a2 : S1600000.Idx → EReal) (w : S128x128.Idx → EReal) (b : S1x128.Idx → EReal)
    (h : S100000x128.Idx → EReal) : S100000x128.Idx → EReal :=
  Gcn.combine (RowsProduct.prod 100000 128 128 h w) (Cert.ReferenceIdeal.Graph.agg a1 a2 (RowsProduct.prod 100000 128 128 h w))
    (selfCol a1 a2) b (Ideal.ofBits .f32 0x00000000#32) h

/-- The node features after 0 … 4 layers of the kernel. -/
def feat0 : S100000x128.Idx → EReal := m ((c : Thread nD τ).loc main_arg0)
def feat1 : S100000x128.Idx → EReal := step (m ((c : Thread nD τ).loc main_arg1)) (m ((c : Thread nD τ).loc main_arg2)) (w0 (m ((c : Thread nD τ).loc main_arg3))) (bias0 (m ((c : Thread nD τ).loc main_arg4))) (feat0 m c)
def feat2 : S100000x128.Idx → EReal := step (m ((c : Thread nD τ).loc main_arg1)) (m ((c : Thread nD τ).loc main_arg2)) (w1 (m ((c : Thread nD τ).loc main_arg3))) (bias1 (m ((c : Thread nD τ).loc main_arg4))) (feat1 m c)
def feat3 : S100000x128.Idx → EReal := step (m ((c : Thread nD τ).loc main_arg1)) (m ((c : Thread nD τ).loc main_arg2)) (w2 (m ((c : Thread nD τ).loc main_arg3))) (bias2 (m ((c : Thread nD τ).loc main_arg4))) (feat2 m c)
def feat4 : S100000x128.Idx → EReal := step (m ((c : Thread nD τ).loc main_arg1)) (m ((c : Thread nD τ).loc main_arg2)) (w3 (m ((c : Thread nD τ).loc main_arg3))) (bias3 (m ((c : Thread nD τ).loc main_arg4))) (feat3 m c)

/-! ## What persists -/

/-- The buffers every later stretch and call reads but none writes, at their values. -/
structure Kept (a1 : S2x1600000.Idx → BitVec 32) (a2 : S1600000.Idx → EReal) (a3 : S4x128x128.Idx → EReal) (a4 : S4x128.Idx → EReal)
    (W : Valuation τ sig (Elt Ideal)) : Prop where
  hsrc : W (Proc.devRef .tc main_v1) = src a1
  hdst : W (Proc.devRef .tc main_v3) = dst a1
  hnorm : W (Proc.devRef .tc main_v25) = norm a1 a2
  hcol : W (Proc.devRef .tc main_v27) = selfCol a1 a2
  hwts : W (Proc.devRef .tc main_v28) = weights a3
  hbs : W (Proc.devRef .tc main_arg4) = a4

/-! ## After the first stretch -/

theorem first_kept : Kept (m ((c : Thread nD τ).loc main_arg1)) (m ((c : Thread nD τ).loc main_arg2))
    (m ((c : Thread nD τ).loc main_arg3)) (m ((c : Thread nD τ).loc main_arg4)) (W1 m ρ c) where
  hsrc := by show StableHlo.after hostOps0 (W0 m ρ c) (Proc.devRef .tc main_v1) = _; after_results_simp <;> rfl
  hdst := by show StableHlo.after hostOps0 (W0 m ρ c) (Proc.devRef .tc main_v3) = _; after_results_simp <;> rfl
  hnorm := by show StableHlo.after hostOps0 (W0 m ρ c) (Proc.devRef .tc main_v25) = _; after_results_simp <;> rfl
  hcol := by show StableHlo.after hostOps0 (W0 m ρ c) (Proc.devRef .tc main_v27) = _; after_results_simp <;> rfl
  hwts := by show StableHlo.after hostOps0 (W0 m ρ c) (Proc.devRef .tc main_v28) = _; after_results_simp <;> rfl
  hbs := by show StableHlo.after hostOps0 (W0 m ρ c) (Proc.devRef .tc main_arg4) = _; after_results_simp <;> rfl

/-- The first call's left operand is the input features, -/
theorem first_input : W1 m ρ c (Proc.devRef .tc main_arg0) = feat0 m c := by
  show StableHlo.after hostOps0 (W0 m ρ c) (Proc.devRef .tc main_arg0) = _; after_results_simp <;> rfl

/-- and its right operand the first weight matrix. -/
theorem first_weights : W1 m ρ c (Proc.devRef .tc main_v30) = w0 (m ((c : Thread nD τ).loc main_arg3)) := by
  show StableHlo.after hostOps0 (W0 m ρ c) (Proc.devRef .tc main_v30) = _; after_results_simp <;> rfl

end Cert.KernelIdeal.Host

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.Product6.lean ====
/-
  Pallas call 6: the rows of a [100000, 128] matrix times a [128, 128] matrix, twenty blocks of 5000 rows.

  Grid point t stages rows 5000 t … 5000 t + 4999 of the left matrix and the whole right matrix, multiplies them
  (the operands' change of float format is the identity on the extended reals, the accumulator starts at the zero
  word) and writes the product back as the same rows of the result. An entry of a product reads one row of the left
  operand and one column of the right one, so each block of the result is the block of the ONE product of the whole
  matrices; the twenty blocks cover every row, so the result array ends holding that product.
-/
import proofs.«145220_j17600775979603_1_alg».proof.Proof.Gen.KernelIdeal.Frame
import Idealize.ShloMosaic.Lib.Pipeline.Value
import Idealize.ShloMosaic.Lib.ValueIdx
import Idealize.ShloMosaic.Lib.ValueLayout
import proofs.«145220_j17600775979603_1_alg».proof.Proof.LibRowsProduct
import proofs.«145220_j17600775979603_1_alg».proof.Proof.LibKeepdims

set_option maxRecDepth 16384

noncomputable section

namespace Cert.KernelIdeal.Product6

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

/-- Every access of the body starts at the origin of its staging buffer. -/
theorem origin : (![0, 0] : Fin 2 → Nat) = fun _ => 0 := funext fun a => by fin_cases a <;> rfl

/-- The body's stored value at an entry: the sum over k of (row entry k) * (column entry k). -/
theorem body_apply (x0 : Vec Ideal S5000x128 .f32) (x1 : Vec Ideal S128x128 .bf16) (j : S5000x128.Idx) :
    k6_pay1 (F := Ideal) x0 x1 j = ∑ k : Fin 128, (x0 (ix2 (j 0) k) : EReal) * (x1 (ix2 k (j 1)) : EReal) := by
  unfold k6_pay1
  refine (PlainDot.matmul_zero_apply 5000 128 128 none _ _ j).trans ?_
  refine Finset.sum_congr rfl fun k _ => ?_
  rw [shapeCast_self, shapeCast_self]
  rfl

/-- The index maps over the grid: the left operand and the result move together down the rows, block t at block
    row t; the right operand stays at its one block. -/
theorem index_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What grid point t writes back is block t of the product of the whole matrices as the region finds them. -/
theorem flushed_eq (c : Dev nD) (t : Fin cfg6.N) :
    (dat6 V c).flushed 2 t = ((cfg6.win 2).blk t).view.read (Elt Ideal)
      (RowsProduct.prod 100000 128 128 (V c main_v88) (V c main_v90)) := by
  show (cfg6.win 2).cut (grid6.coords t) ((dat6 V c).after 2 t) = _
  rw [after6_2]
  unfold out6_2
  rw [View.canon_unit_zero origin]
  simp only [View.ld_unit_zero (S := S5000x128) origin, View.ld_unit_zero (S := S128x128) origin]
  obtain ⟨e0, e1, e2, e3, e4, e5⟩ := index_facts t
  funext j
  show k6_pay1 (F := Ideal) (iblk6 V c 0 t) (iblk6 V c 1 t) j
    = RowsProduct.prod 100000 128 128 (V c main_v88) (V c main_v90) (((cfg6.win 2).blk t).view.emb j)
  refine (body_apply (iblk6 V c 0 t) (iblk6 V c 1 t) j).trans ?_
  refine Finset.sum_congr rfl fun k _ => ?_
  have hl : iblk6 V c 0 t (ix2 (j 0) k) = V c main_v88 (ix2 ((((cfg6.win 2).blk t).view.emb j) 0) k) := by
    show V c main_v88 (((cfg6.win 0).blk t).view.emb (ix2 (j 0) k)) = _
    refine congrArg (V c main_v88) (funext fun a => Fin.ext ?_)
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  have hr : iblk6 V c 1 t (ix2 k (j 1)) = V c main_v90 (ix2 k ((((cfg6.win 2).blk t).view.emb j) 1)) := by
    show V c main_v90 (((cfg6.win 1).blk t).view.emb (ix2 k (j 1))) = _
    refine congrArg (V c main_v90) (funext fun a => Fin.ext ?_)
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega
  rw [hl, hr]

/-- An entry of the result array lies in point t's block iff each coordinate lies in the block's range. -/
theorem mem_block (t : Fin cfg6.N) (i : S100000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v91).slice (win6_2.rect t)).set ↔ _
  rw [View.set_slice_whole, Rect.mem_set_unit]
  exact Iff.rfl

/-- Every entry is written: row r lies in the block of point r / 5000. -/
theorem covered (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : grid6.N = 20 := N_6
  have ht : (i 0).val / 5000 < cfg6.N := by show (i 0).val / 5000 < grid6.N; rw [hN]; omega
  obtain ⟨e0, e1, e2, e3, e4, e5⟩ := index_facts ⟨(i 0).val / 5000, ht⟩
  refine ⟨⟨(i 0).val / 5000, ht⟩, flush6_2 _, ?_⟩
  rw [mem_block]
  intro a
  match a with
  | ⟨0, _⟩ =>
    show win6_2.index ⟨(i 0).val / 5000, ht⟩ (0 : Fin 2) * 5000 ≤ (i 0).val
      ∧ (i 0).val < win6_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, ht⟩ (1 : Fin 2) * 128 ≤ (i 1).val
      ∧ (i 1).val < win6_2.index ⟨(i 0).val / 5000, ht⟩ (1 : Fin 2) * 128 + 128
    rw [e5]; omega

/-- The result array after the region: the product of the two matrices the region found. -/
theorem final (c : Dev nD) : (dat6 V c).arrAt 2 cfg6.N
    = RowsProduct.prod 100000 128 128 (V c main_v88) (V c main_v90) :=
  (dat6 V c).arrAt_eq_of_cover 2 _ (fun t _ => flushed_eq V c t) covered

end Cert.KernelIdeal.Product6

end
-- ==== Proof.Combine7.lean ====
/-
  Pallas call 7: the entrywise half of a layer on twenty blocks of 5000 rows.

  Grid point t stages rows 5000 t … 5000 t + 4999 of the transformed features, of their aggregation and of the layer's
  input, the same rows of the self-loop column [100000, 1], and the one bias row [1, 128]; at the entry (r, c) it
  stores  max (agg + (t * sn r + b c)) 0 + h  and writes the block back as the same rows of the result. Every operand
  is read at the entry's own row and column, so each block of the result is the block of ONE entrywise function of the
  whole arrays; the twenty blocks cover every row, so the result array ends holding that function.
-/
import proofs.«145220_j17600775979603_1_alg».proof.Proof.Gen.KernelIdeal.Frame
import Idealize.ShloMosaic.Lib.Pipeline.Value
import Idealize.ShloMosaic.Lib.ValueIdx
import Idealize.ShloMosaic.Lib.ValueLayout
import proofs.«145220_j17600775979603_1_alg».proof.Proof.LibRowsProduct
import proofs.«145220_j17600775979603_1_alg».proof.Proof.LibKeepdims
import proofs.«145220_j17600775979603_1_alg».proof.Proof.Layer

set_option maxRecDepth 16384

noncomputable section

namespace Cert.KernelIdeal.Combine7

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

/-- Every access of the body starts at the origin of its staging buffer. -/
theorem origin : (![0, 0] : Fin 2 → Nat) = fun _ => 0 := funext fun a => by fin_cases a <;> rfl

/-- A [1, 128] row broadcast down 5000 rows reads, at (p, q), the row's entry q. -/
theorem row_broadcast_apply (v : S1x128.Idx → EReal) (h : S1x128.Broadcasts S5000x128) (p : Fin 5000) (q : Fin 128) :
    broadcastTo S5000x128 v h (ix2 p q) = v (ix2 (0 : Fin 1) q) := by
  refine broadcastTo_apply v h (ix2 p q) (ix2 (0 : Fin 1) q) fun a => ?_
  match a with
  | ⟨0, _⟩ => show (0 : Nat) = if (1 : Nat) = 1 then 0 else _; rw [if_pos rfl]
  | ⟨1, _⟩ => show q.val = if (128 : Nat) = 1 then 0 else q.val; rw [if_neg (by decide)]

/-- The body's stored value at the entry (p, q) of its block. -/
theorem body_apply (x0 : Vec Ideal S5000x128 .f32) (x2 : Vec Ideal S5000x1 .f32) (x6 : Vec Ideal S1x128 .f32)
    (x10 x15 : Vec Ideal S5000x128 .f32) (p : Fin 5000) (q : Fin 128) :
    k7_pay1 (F := Ideal) x0 x2 x6 x10 x15 (ix2 p q)
      = max ((x10 (ix2 p q) : EReal) + ((x0 (ix2 p q) : EReal) * (x2 (ix2 p (0 : Fin 1)) : EReal) + (x6 (ix2 (0 : Fin 1) q) : EReal)))
          (Ideal.ofBits .f32 0x00000000#32) + (x15 (ix2 p q) : EReal) := by
  have h10 : shapeCast S5000x128 x10 shapeCasts_S5000x128_S5000x128 = x10 := shapeCast_self _ _
  have h0 : shapeCast S5000x128 x0 shapeCasts_S5000x128_S5000x128 = x0 := shapeCast_self _ _
  have h15 : shapeCast S5000x128 x15 shapeCasts_S5000x128_S5000x128 = x15 := shapeCast_self _ _
  have h2 : broadcastTo S5000x128 (shapeCast S5000x1 x2 shapeCasts_S5000x1_S5000x1) broadcasts_S5000x1_S5000x128 (ix2 p q)
      = x2 (ix2 p (0 : Fin 1)) :=
    (Keepdims.broadcastTo_a1_ab_apply _ _ p q).trans (congrFun (shapeCast_self x2 _) _)
  have h6 : broadcastTo S5000x128 (shapeCast S1x128 x6 shapeCasts_S1x128_S1x128) broadcasts_S1x128_S5000x128 (ix2 p q)
      = x6 (ix2 (0 : Fin 1) q) :=
    (row_broadcast_apply _ _ p q).trans (congrFun (shapeCast_self x6 _) _)
  unfold k7_pay1
  show max ((shapeCast S5000x128 x10 shapeCasts_S5000x128_S5000x128 (ix2 p q) : EReal)
      + ((shapeCast S5000x128 x0 shapeCasts_S5000x128_S5000x128 (ix2 p q) : EReal)
          * (broadcastTo S5000x128 (shapeCast S5000x1 x2 shapeCasts_S5000x1_S5000x1) broadcasts_S5000x1_S5000x128 (ix2 p q) : EReal)
        + (broadcastTo S5000x128 (shapeCast S1x128 x6 shapeCasts_S1x128_S1x128) broadcasts_S1x128_S5000x128 (ix2 p q) : EReal)))
      (Ideal.ofBits .f32 0x00000000#32) + (shapeCast S5000x128 x15 shapeCasts_S5000x128_S5000x128 (ix2 p q) : EReal) = _
  rw [h10, h0, h2, h6, h15]

/-- The index maps over the grid: the five row-blocked windows move together, block t at block row t; the bias row
    stays at its one block. -/
theorem index_facts : ∀ t : Fin cfg7.N, win7_5.index t (0 : Fin 2) = t.val ∧ win7_5.index t (1 : Fin 2) = 0
    ∧ win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- What grid point t writes back is block t of the entrywise function of the whole arrays as the region finds them. -/
theorem flushed_eq (c : Dev nD) (t : Fin cfg7.N) :
    (dat7 V c).flushed 5 t = ((cfg7.win 5).blk t).view.read (Elt Ideal)
      (Gcn.combine (V c main_v91) (V c main_v104) (V c main_v27) (V c main_v107) (Ideal.ofBits .f32 0x00000000#32) (V c main_v88)) := by
  show (cfg7.win 5).cut (grid7.coords t) ((dat7 V c).after 5 t) = _
  rw [after7_5]
  unfold out7_5
  rw [View.canon_unit_zero origin]
  simp only [View.ld_unit_zero (S := S5000x128) origin, View.ld_unit_zero (S := S5000x1) origin,
    View.ld_unit_zero (S := S1x128) origin]
  obtain ⟨o0, o1, a0, a1, b0, b1, s0, s1, r0, r1, h0, h1⟩ := index_facts t
  funext j
  obtain ⟨p, q, rfl⟩ : ∃ (p : Fin 5000) (q : Fin 128), j = ix2 p q := ⟨j 0, j 1, eq_ix2 j⟩
  show k7_pay1 (F := Ideal) (iblk7 V c 0 t) (iblk7 V c 2 t) (iblk7 V c 3 t) (iblk7 V c 1 t) (iblk7 V c 4 t) (ix2 p q)
    = Gcn.combine (V c main_v91) (V c main_v104) (V c main_v27) (V c main_v107) (Ideal.ofBits .f32 0x00000000#32) (V c main_v88)
        (((cfg7.win 5).blk t).view.emb (ix2 p q))
  refine (body_apply (iblk7 V c 0 t) (iblk7 V c 2 t) (iblk7 V c 3 t) (iblk7 V c 1 t) (iblk7 V c 4 t) p q).trans ?_
  have ht : iblk7 V c 0 t (ix2 p q) = V c main_v91 (((cfg7.win 5).blk t).view.emb (ix2 p q)) := by
    show V c main_v91 (((cfg7.win 0).blk t).view.emb (ix2 p q)) = _
    refine congrArg (V c main_v91) (funext fun a => Fin.ext ?_)
    match a with
    | ⟨0, _⟩ => show win7_0.index t (0 : Fin 2) * 5000 + 1 * p.val = win7_5.index t (0 : Fin 2) * 5000 + 1 * p.val; omega
    | ⟨1, _⟩ => show win7_0.index t (1 : Fin 2) * 128 + 1 * q.val = win7_5.index t (1 : Fin 2) * 128 + 1 * q.val; omega
  have hg : iblk7 V c 1 t (ix2 p q) = V c main_v104 (((cfg7.win 5).blk t).view.emb (ix2 p q)) := by
    show V c main_v104 (((cfg7.win 1).blk t).view.emb (ix2 p q)) = _
    refine congrArg (V c main_v104) (funext fun a => Fin.ext ?_)
    match a with
    | ⟨0, _⟩ => show win7_1.index t (0 : Fin 2) * 5000 + 1 * p.val = win7_5.index t (0 : Fin 2) * 5000 + 1 * p.val; omega
    | ⟨1, _⟩ => show win7_1.index t (1 : Fin 2) * 128 + 1 * q.val = win7_5.index t (1 : Fin 2) * 128 + 1 * q.val; omega
  have hh : iblk7 V c 4 t (ix2 p q) = V c main_v88 (((cfg7.win 5).blk t).view.emb (ix2 p q)) := by
    show V c main_v88 (((cfg7.win 4).blk t).view.emb (ix2 p q)) = _
    refine congrArg (V c main_v88) (funext fun a => Fin.ext ?_)
    match a with
    | ⟨0, _⟩ => show win7_4.index t (0 : Fin 2) * 5000 + 1 * p.val = win7_5.index t (0 : Fin 2) * 5000 + 1 * p.val; omega
    | ⟨1, _⟩ => show win7_4.index t (1 : Fin 2) * 128 + 1 * q.val = win7_5.index t (1 : Fin 2) * 128 + 1 * q.val; omega
  have hs : iblk7 V c 2 t (ix2 p (0 : Fin 1))
      = V c main_v27 (ix2 ((((cfg7.win 5).blk t).view.emb (ix2 p q)) 0) (0 : Fin 1)) := by
    show V c main_v27 (((cfg7.win 2).blk t).view.emb (ix2 p (0 : Fin 1))) = _
    refine congrArg (V c main_v27) (funext fun a => Fin.ext ?_)
    match a with
    | ⟨0, _⟩ => show win7_2.index t (0 : Fin 2) * 5000 + 1 * p.val = win7_5.index t (0 : Fin 2) * 5000 + 1 * p.val; omega
    | ⟨1, _⟩ => show win7_2.index t (1 : Fin 2) * 1 + 1 * 0 = 0; omega
  have hb : iblk7 V c 3 t (ix2 (0 : Fin 1) q)
      = V c main_v107 (ix2 (0 : Fin 1) ((((cfg7.win 5).blk t).view.emb (ix2 p q)) 1)) := by
    show V c main_v107 (((cfg7.win 3).blk t).view.emb (ix2 (0 : Fin 1) q)) = _
    refine congrArg (V c main_v107) (funext fun a => Fin.ext ?_)
    match a with
    | ⟨0, _⟩ => show win7_3.index t (0 : Fin 2) * 1 + 1 * 0 = 0; omega
    | ⟨1, _⟩ => show win7_3.index t (1 : Fin 2) * 128 + 1 * q.val = win7_5.index t (1 : Fin 2) * 128 + 1 * q.val; omega
  rw [ht, hg, hh, hs, hb]
  rfl

/-- An entry of the result array lies in point t's block iff each coordinate lies in the block's range. -/
theorem mem_block (t : Fin cfg7.N) (i : S100000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v108).slice (win7_5.rect t)).set ↔ _
  rw [View.set_slice_whole, Rect.mem_set_unit]
  exact Iff.rfl

/-- Every entry is written: row r lies in the block of point r / 5000. -/
theorem covered (i : S100000x128.Idx) :
    ∃ t : Fin cfg7.N, (cfg7.win 5).flush t = true ∧ i ∈ ((cfg7.win 5).blk t).view.set := by
  have hi0 : (i 0).val < 100000 := (i 0).isLt
  have hi1 : (i 1).val < 128 := (i 1).isLt
  have hN : grid7.N = 20 := N_7
  have ht : (i 0).val / 5000 < cfg7.N := by show (i 0).val / 5000 < grid7.N; rw [hN]; omega
  obtain ⟨o0, o1, -⟩ := index_facts ⟨(i 0).val / 5000, ht⟩
  refine ⟨⟨(i 0).val / 5000, ht⟩, flush7_5 _, ?_⟩
  rw [mem_block]
  intro a
  match a with
  | ⟨0, _⟩ =>
    show win7_5.index ⟨(i 0).val / 5000, ht⟩ (0 : Fin 2) * 5000 ≤ (i 0).val
      ∧ (i 0).val < win7_5.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win7_5.index ⟨(i 0).val / 5000, ht⟩ (1 : Fin 2) * 128 ≤ (i 1).val
      ∧ (i 1).val < win7_5.index ⟨(i 0).val / 5000, ht⟩ (1 : Fin 2) * 128 + 128
    rw [o1]; omega

/-- The result array after the region: the entrywise function of the arrays the region found. -/
theorem final (c : Dev nD) : (dat7 V c).arrAt 5 cfg7.N
    = Gcn.combine (V c main_v91) (V c main_v104) (V c main_v27) (V c main_v107) (Ideal.ofBits .f32 0x00000000#32) (V c main_v88) :=
  (dat7 V c).arrAt_eq_of_cover 5 _ (fun t _ => flushed_eq V c t) covered

end Cert.KernelIdeal.Combine7

end
-- ==== Proof.Product4.lean ====
/-
  Pallas call 4: the rows of a [100000, 128] matrix times a [128, 128] matrix, twenty blocks of 5000 rows.

  Grid point t stages rows 5000 t … 5000 t + 4999 of the left matrix and the whole right matrix, multiplies them
  (the operands' change of float format is the identity on the extended reals, the accumulator starts at the zero
  word) and writes the product back as the same rows of the result. An entry of a product reads one row of the left
  operand and one column of the right one, so each block of the result is the block of the ONE product of the whole
  matrices; the twenty blocks cover every row, so the result array ends holding that product.
-/
import proofs.«145220_j17600775979603_1_alg».proof.Proof.Gen.KernelIdeal.Frame
import Idealize.ShloMosaic.Lib.Pipeline.Value
import Idealize.ShloMosaic.Lib.ValueIdx
import Idealize.ShloMosaic.Lib.ValueLayout
import proofs.«145220_j17600775979603_1_alg».proof.Proof.LibRowsProduct
import proofs.«145220_j17600775979603_1_alg».proof.Proof.LibKeepdims

set_option maxRecDepth 16384

noncomputable section

namespace Cert.KernelIdeal.Product4

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

/-- Every access of the body starts at the origin of its staging buffer. -/
theorem origin : (![0, 0] : Fin 2 → Nat) = fun _ => 0 := funext fun a => by fin_cases a <;> rfl

/-- The body's stored value at an entry: the sum over k of (row entry k) * (column entry k). -/
theorem body_apply (x0 : Vec Ideal S5000x128 .f32) (x1 : Vec Ideal S128x128 .bf16) (j : S5000x128.Idx) :
    k4_pay1 (F := Ideal) x0 x1 j = ∑ k : Fin 128, (x0 (ix2 (j 0) k) : EReal) * (x1 (ix2 k (j 1)) : EReal) := by
  unfold k4_pay1
  refine (PlainDot.matmul_zero_apply 5000 128 128 none _ _ j).trans ?_
  refine Finset.sum_congr rfl fun k _ => ?_
  rw [shapeCast_self, shapeCast_self]
  rfl

/-- The index maps over the grid: the left operand and the result move together down the rows, block t at block
    row t; the right operand stays at its one block. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point t writes back is block t of the product of the whole matrices as the region finds them. -/
theorem flushed_eq (c : Dev nD) (t : Fin cfg4.N) :
    (dat4 V c).flushed 2 t = ((cfg4.win 2).blk t).view.read (Elt Ideal)
      (RowsProduct.prod 100000 128 128 (V c main_v68) (V c main_v70)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x128) origin]
  obtain ⟨e0, e1, e2, e3, e4, e5⟩ := index_facts t
  funext j
  show k4_pay1 (F := Ideal) (iblk4 V c 0 t) (iblk4 V c 1 t) j
    = RowsProduct.prod 100000 128 128 (V c main_v68) (V c main_v70) (((cfg4.win 2).blk t).view.emb j)
  refine (body_apply (iblk4 V c 0 t) (iblk4 V c 1 t) j).trans ?_
  refine Finset.sum_congr rfl fun k _ => ?_
  have hl : iblk4 V c 0 t (ix2 (j 0) k) = V c main_v68 (ix2 ((((cfg4.win 2).blk t).view.emb j) 0) k) := by
    show V c main_v68 (((cfg4.win 0).blk t).view.emb (ix2 (j 0) k)) = _
    refine congrArg (V c main_v68) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have hr : iblk4 V c 1 t (ix2 k (j 1)) = V c main_v70 (ix2 k ((((cfg4.win 2).blk t).view.emb j) 1)) := by
    show V c main_v70 (((cfg4.win 1).blk t).view.emb (ix2 k (j 1))) = _
    refine congrArg (V c main_v70) (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [hl, hr]

/-- An entry of the result array lies in point t's block iff each coordinate lies in the block's range. -/
theorem mem_block (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v71).slice (win4_2.rect t)).set ↔ _
  rw [View.set_slice_whole, Rect.mem_set_unit]
  exact Iff.rfl

/-- Every entry is written: row r lies in the block of point r / 5000. -/
theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 20 := N_4
  have ht : (i 0).val / 5000 < cfg4.N := by show (i 0).val / 5000 < grid4.N; rw [hN]; omega
  obtain ⟨e0, e1, e2, e3, e4, e5⟩ := index_facts ⟨(i 0).val / 5000, ht⟩
  refine ⟨⟨(i 0).val / 5000, ht⟩, flush4_2 _, ?_⟩
  rw [mem_block]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    rw [e5]; omega

/-- The result array after the region: the product of the two matrices the region found. -/
theorem final (c : Dev nD) : (dat4 V c).arrAt 2 cfg4.N
    = RowsProduct.prod 100000 128 128 (V c main_v68) (V c main_v70) :=
  (dat4 V c).arrAt_eq_of_cover 2 _ (fun t _ => flushed_eq V c t) covered

end Cert.KernelIdeal.Product4

end
-- ==== Proof.Combine5.lean ====
/-
  Pallas call 5: the entrywise half of a layer on twenty blocks of 5000 rows.

  Grid point t stages rows 5000 t … 5000 t + 4999 of the transformed features, of their aggregation and of the layer's
  input, the same rows of the self-loop column [100000, 1], and the one bias row [1, 128]; at the entry (r, c) it
  stores  max (agg + (t * sn r + b c)) 0 + h  and writes the block back as the same rows of the result. Every operand
  is read at the entry's own row and column, so each block of the result is the block of ONE entrywise function of the
  whole arrays; the twenty blocks cover every row, so the result array ends holding that function.
-/
import proofs.«145220_j17600775979603_1_alg».proof.Proof.Gen.KernelIdeal.Frame
import Idealize.ShloMosaic.Lib.Pipeline.Value
import Idealize.ShloMosaic.Lib.ValueIdx
import Idealize.ShloMosaic.Lib.ValueLayout
import proofs.«145220_j17600775979603_1_alg».proof.Proof.LibRowsProduct
import proofs.«145220_j17600775979603_1_alg».proof.Proof.LibKeepdims
import proofs.«145220_j17600775979603_1_alg».proof.Proof.Layer

set_option maxRecDepth 16384

noncomputable section

namespace Cert.KernelIdeal.Combine5

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

/-- Every access of the body starts at the origin of its staging buffer. -/
theorem origin : (![0, 0] : Fin 2 → Nat) = fun _ => 0 := funext fun a => by fin_cases a <;> rfl

/-- A [1, 128] row broadcast down 5000 rows reads, at (p, q), the row's entry q. -/
theorem row_broadcast_apply (v : S1x128.Idx → EReal) (h : S1x128.Broadcasts S5000x128) (p : Fin 5000) (q : Fin 128) :
    broadcastTo S5000x128 v h (ix2 p q) = v (ix2 (0 : Fin 1) q) := by
  refine broadcastTo_apply v h (ix2 p q) (ix2 (0 : Fin 1) q) fun a => ?_
  match a with
  | ⟨0, _⟩ => show (0 : Nat) = if (1 : Nat) = 1 then 0 else _; rw [if_pos rfl]
  | ⟨1, _⟩ => show q.val = if (128 : Nat) = 1 then 0 else q.val; rw [if_neg (by decide)]

/-- The body's stored value at the entry (p, q) of its block. -/
theorem body_apply (x0 : Vec Ideal S5000x128 .f32) (x2 : Vec Ideal S5000x1 .f32) (x6 : Vec Ideal S1x128 .f32)
    (x10 x15 : Vec Ideal S5000x128 .f32) (p : Fin 5000) (q : Fin 128) :
    k5_pay1 (F := Ideal) x0 x2 x6 x10 x15 (ix2 p q)
      = max ((x10 (ix2 p q) : EReal) + ((x0 (ix2 p q) : EReal) * (x2 (ix2 p (0 : Fin 1)) : EReal) + (x6 (ix2 (0 : Fin 1) q) : EReal)))
          (Ideal.ofBits .f32 0x00000000#32) + (x15 (ix2 p q) : EReal) := by
  have h10 : shapeCast S5000x128 x10 shapeCasts_S5000x128_S5000x128 = x10 := shapeCast_self _ _
  have h0 : shapeCast S5000x128 x0 shapeCasts_S5000x128_S5000x128 = x0 := shapeCast_self _ _
  have h15 : shapeCast S5000x128 x15 shapeCasts_S5000x128_S5000x128 = x15 := shapeCast_self _ _
  have h2 : broadcastTo S5000x128 (shapeCast S5000x1 x2 shapeCasts_S5000x1_S5000x1) broadcasts_S5000x1_S5000x128 (ix2 p q)
      = x2 (ix2 p (0 : Fin 1)) :=
    (Keepdims.broadcastTo_a1_ab_apply _ _ p q).trans (congrFun (shapeCast_self x2 _) _)
  have h6 : broadcastTo S5000x128 (shapeCast S1x128 x6 shapeCasts_S1x128_S1x128) broadcasts_S1x128_S5000x128 (ix2 p q)
      = x6 (ix2 (0 : Fin 1) q) :=
    (row_broadcast_apply _ _ p q).trans (congrFun (shapeCast_self x6 _) _)
  unfold k5_pay1
  show max ((shapeCast S5000x128 x10 shapeCasts_S5000x128_S5000x128 (ix2 p q) : EReal)
      + ((shapeCast S5000x128 x0 shapeCasts_S5000x128_S5000x128 (ix2 p q) : EReal)
          * (broadcastTo S5000x128 (shapeCast S5000x1 x2 shapeCasts_S5000x1_S5000x1) broadcasts_S5000x1_S5000x128 (ix2 p q) : EReal)
        + (broadcastTo S5000x128 (shapeCast S1x128 x6 shapeCasts_S1x128_S1x128) broadcasts_S1x128_S5000x128 (ix2 p q) : EReal)))
      (Ideal.ofBits .f32 0x00000000#32) + (shapeCast S5000x128 x15 shapeCasts_S5000x128_S5000x128 (ix2 p q) : EReal) = _
  rw [h10, h0, h2, h6, h15]

/-- The index maps over the grid: the five row-blocked windows move together, block t at block row t; the bias row
    stays at its one block. -/
theorem index_facts : ∀ t : Fin cfg5.N, win5_5.index t (0 : Fin 2) = t.val ∧ win5_5.index t (1 : Fin 2) = 0
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What grid point t writes back is block t of the entrywise function of the whole arrays as the region finds them. -/
theorem flushed_eq (c : Dev nD) (t : Fin cfg5.N) :
    (dat5 V c).flushed 5 t = ((cfg5.win 5).blk t).view.read (Elt Ideal)
      (Gcn.combine (V c main_v71) (V c main_v84) (V c main_v27) (V c main_v87) (Ideal.ofBits .f32 0x00000000#32) (V c main_v68)) := by
  show (cfg5.win 5).cut (grid5.coords t) ((dat5 V c).after 5 t) = _
  rw [after5_5]
  unfold out5_5
  rw [View.canon_unit_zero origin]
  simp only [View.ld_unit_zero (S := S5000x128) origin, View.ld_unit_zero (S := S5000x1) origin,
    View.ld_unit_zero (S := S1x128) origin]
  obtain ⟨o0, o1, a0, a1, b0, b1, s0, s1, r0, r1, h0, h1⟩ := index_facts t
  funext j
  obtain ⟨p, q, rfl⟩ : ∃ (p : Fin 5000) (q : Fin 128), j = ix2 p q := ⟨j 0, j 1, eq_ix2 j⟩
  show k5_pay1 (F := Ideal) (iblk5 V c 0 t) (iblk5 V c 2 t) (iblk5 V c 3 t) (iblk5 V c 1 t) (iblk5 V c 4 t) (ix2 p q)
    = Gcn.combine (V c main_v71) (V c main_v84) (V c main_v27) (V c main_v87) (Ideal.ofBits .f32 0x00000000#32) (V c main_v68)
        (((cfg5.win 5).blk t).view.emb (ix2 p q))
  refine (body_apply (iblk5 V c 0 t) (iblk5 V c 2 t) (iblk5 V c 3 t) (iblk5 V c 1 t) (iblk5 V c 4 t) p q).trans ?_
  have ht : iblk5 V c 0 t (ix2 p q) = V c main_v71 (((cfg5.win 5).blk t).view.emb (ix2 p q)) := by
    show V c main_v71 (((cfg5.win 0).blk t).view.emb (ix2 p q)) = _
    refine congrArg (V c main_v71) (funext fun a => Fin.ext ?_)
    match a with
    | ⟨0, _⟩ => show win5_0.index t (0 : Fin 2) * 5000 + 1 * p.val = win5_5.index t (0 : Fin 2) * 5000 + 1 * p.val; omega
    | ⟨1, _⟩ => show win5_0.index t (1 : Fin 2) * 128 + 1 * q.val = win5_5.index t (1 : Fin 2) * 128 + 1 * q.val; omega
  have hg : iblk5 V c 1 t (ix2 p q) = V c main_v84 (((cfg5.win 5).blk t).view.emb (ix2 p q)) := by
    show V c main_v84 (((cfg5.win 1).blk t).view.emb (ix2 p q)) = _
    refine congrArg (V c main_v84) (funext fun a => Fin.ext ?_)
    match a with
    | ⟨0, _⟩ => show win5_1.index t (0 : Fin 2) * 5000 + 1 * p.val = win5_5.index t (0 : Fin 2) * 5000 + 1 * p.val; omega
    | ⟨1, _⟩ => show win5_1.index t (1 : Fin 2) * 128 + 1 * q.val = win5_5.index t (1 : Fin 2) * 128 + 1 * q.val; omega
  have hh : iblk5 V c 4 t (ix2 p q) = V c main_v68 (((cfg5.win 5).blk t).view.emb (ix2 p q)) := by
    show V c main_v68 (((cfg5.win 4).blk t).view.emb (ix2 p q)) = _
    refine congrArg (V c main_v68) (funext fun a => Fin.ext ?_)
    match a with
    | ⟨0, _⟩ => show win5_4.index t (0 : Fin 2) * 5000 + 1 * p.val = win5_5.index t (0 : Fin 2) * 5000 + 1 * p.val; omega
    | ⟨1, _⟩ => show win5_4.index t (1 : Fin 2) * 128 + 1 * q.val = win5_5.index t (1 : Fin 2) * 128 + 1 * q.val; omega
  have hs : iblk5 V c 2 t (ix2 p (0 : Fin 1))
      = V c main_v27 (ix2 ((((cfg5.win 5).blk t).view.emb (ix2 p q)) 0) (0 : Fin 1)) := by
    show V c main_v27 (((cfg5.win 2).blk t).view.emb (ix2 p (0 : Fin 1))) = _
    refine congrArg (V c main_v27) (funext fun a => Fin.ext ?_)
    match a with
    | ⟨0, _⟩ => show win5_2.index t (0 : Fin 2) * 5000 + 1 * p.val = win5_5.index t (0 : Fin 2) * 5000 + 1 * p.val; omega
    | ⟨1, _⟩ => show win5_2.index t (1 : Fin 2) * 1 + 1 * 0 = 0; omega
  have hb : iblk5 V c 3 t (ix2 (0 : Fin 1) q)
      = V c main_v87 (ix2 (0 : Fin 1) ((((cfg5.win 5).blk t).view.emb (ix2 p q)) 1)) := by
    show V c main_v87 (((cfg5.win 3).blk t).view.emb (ix2 (0 : Fin 1) q)) = _
    refine congrArg (V c main_v87) (funext fun a => Fin.ext ?_)
    match a with
    | ⟨0, _⟩ => show win5_3.index t (0 : Fin 2) * 1 + 1 * 0 = 0; omega
    | ⟨1, _⟩ => show win5_3.index t (1 : Fin 2) * 128 + 1 * q.val = win5_5.index t (1 : Fin 2) * 128 + 1 * q.val; omega
  rw [ht, hg, hh, hs, hb]
  rfl

/-- An entry of the result array lies in point t's block iff each coordinate lies in the block's range. -/
theorem mem_block (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v88).slice (win5_5.rect t)).set ↔ _
  rw [View.set_slice_whole, Rect.mem_set_unit]
  exact Iff.rfl

/-- Every entry is written: row r lies in the block of point r / 5000. -/
theorem covered (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : grid5.N = 20 := N_5
  have ht : (i 0).val / 5000 < cfg5.N := by show (i 0).val / 5000 < grid5.N; rw [hN]; omega
  obtain ⟨o0, o1, -⟩ := index_facts ⟨(i 0).val / 5000, ht⟩
  refine ⟨⟨(i 0).val / 5000, ht⟩, flush5_5 _, ?_⟩
  rw [mem_block]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    rw [o1]; omega

/-- The result array after the region: the entrywise function of the arrays the region found. -/
theorem final (c : Dev nD) : (dat5 V c).arrAt 5 cfg5.N
    = Gcn.combine (V c main_v71) (V c main_v84) (V c main_v27) (V c main_v87) (Ideal.ofBits .f32 0x00000000#32) (V c main_v68) :=
  (dat5 V c).arrAt_eq_of_cover 5 _ (fun t _ => flushed_eq V c t) covered

end Cert.KernelIdeal.Combine5

end
-- ==== Proof.Product2.lean ====
/-
  Pallas call 2: the rows of a [100000, 128] matrix times a [128, 128] matrix, twenty blocks of 5000 rows.

  Grid point t stages rows 5000 t … 5000 t + 4999 of the left matrix and the whole right matrix, multiplies them
  (the operands' change of float format is the identity on the extended reals, the accumulator starts at the zero
  word) and writes the product back as the same rows of the result. An entry of a product reads one row of the left
  operand and one column of the right one, so each block of the result is the block of the ONE product of the whole
  matrices; the twenty blocks cover every row, so the result array ends holding that product.
-/
import proofs.«145220_j17600775979603_1_alg».proof.Proof.Gen.KernelIdeal.Frame
import Idealize.ShloMosaic.Lib.Pipeline.Value
import Idealize.ShloMosaic.Lib.ValueIdx
import Idealize.ShloMosaic.Lib.ValueLayout
import proofs.«145220_j17600775979603_1_alg».proof.Proof.LibRowsProduct
import proofs.«145220_j17600775979603_1_alg».proof.Proof.LibKeepdims

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

/-- Every access of the body starts at the origin of its staging buffer. -/
theorem origin : (![0, 0] : Fin 2 → Nat) = fun _ => 0 := funext fun a => by fin_cases a <;> rfl

/-- The body's stored value at an entry: the sum over k of (row entry k) * (column entry k). -/
theorem body_apply (x0 : Vec Ideal S5000x128 .f32) (x1 : Vec Ideal S128x128 .bf16) (j : S5000x128.Idx) :
    k2_pay1 (F := Ideal) x0 x1 j = ∑ k : Fin 128, (x0 (ix2 (j 0) k) : EReal) * (x1 (ix2 k (j 1)) : EReal) := by
  unfold k2_pay1
  refine (PlainDot.matmul_zero_apply 5000 128 128 none _ _ j).trans ?_
  refine Finset.sum_congr rfl fun k _ => ?_
  rw [shapeCast_self, shapeCast_self]
  rfl

/-- The index maps over the grid: the left operand and the result move together down the rows, block t at block
    row t; the right operand stays at its one block. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the product of the whole matrices as the region finds them. -/
theorem flushed_eq (c : Dev nD) (t : Fin cfg2.N) :
    (dat2 V c).flushed 2 t = ((cfg2.win 2).blk t).view.read (Elt Ideal)
      (RowsProduct.prod 100000 128 128 (V c main_v48) (V c main_v50)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := index_facts t
  funext j
  show k2_pay1 (F := Ideal) (iblk2 V c 0 t) (iblk2 V c 1 t) j
    = RowsProduct.prod 100000 128 128 (V c main_v48) (V c main_v50) (((cfg2.win 2).blk t).view.emb j)
  refine (body_apply (iblk2 V c 0 t) (iblk2 V c 1 t) j).trans ?_
  refine Finset.sum_congr rfl fun k _ => ?_
  have hl : iblk2 V c 0 t (ix2 (j 0) k) = V c main_v48 (ix2 ((((cfg2.win 2).blk t).view.emb j) 0) k) := by
    show V c main_v48 (((cfg2.win 0).blk t).view.emb (ix2 (j 0) k)) = _
    refine congrArg (V c main_v48) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hr : iblk2 V c 1 t (ix2 k (j 1)) = V c main_v50 (ix2 k ((((cfg2.win 2).blk t).view.emb j) 1)) := by
    show V c main_v50 (((cfg2.win 1).blk t).view.emb (ix2 k (j 1))) = _
    refine congrArg (V c main_v50) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hl, hr]

/-- An entry of the result array lies in point t's block iff each coordinate lies in the block's range. -/
theorem mem_block (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v51).slice (win2_2.rect t)).set ↔ _
  rw [View.set_slice_whole, Rect.mem_set_unit]
  exact Iff.rfl

/-- Every entry is written: row r lies in the block of point r / 5000. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  have ht : (i 0).val / 5000 < cfg2.N := by show (i 0).val / 5000 < grid2.N; rw [hN]; omega
  obtain ⟨e0, e1, e2, e3, e4, e5⟩ := index_facts ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-- The result array after the region: the product of the two matrices the region found. -/
theorem final (c : Dev nD) : (dat2 V c).arrAt 2 cfg2.N
    = RowsProduct.prod 100000 128 128 (V c main_v48) (V c main_v50) :=
  (dat2 V c).arrAt_eq_of_cover 2 _ (fun t _ => flushed_eq V c t) covered

end Cert.KernelIdeal.Product2

end
-- ==== Proof.Combine3.lean ====
/-
  Pallas call 3: the entrywise half of a layer on twenty blocks of 5000 rows.

  Grid point t stages rows 5000 t … 5000 t + 4999 of the transformed features, of their aggregation and of the layer's
  input, the same rows of the self-loop column [100000, 1], and the one bias row [1, 128]; at the entry (r, c) it
  stores  max (agg + (t * sn r + b c)) 0 + h  and writes the block back as the same rows of the result. Every operand
  is read at the entry's own row and column, so each block of the result is the block of ONE entrywise function of the
  whole arrays; the twenty blocks cover every row, so the result array ends holding that function.
-/
import proofs.«145220_j17600775979603_1_alg».proof.Proof.Gen.KernelIdeal.Frame
import Idealize.ShloMosaic.Lib.Pipeline.Value
import Idealize.ShloMosaic.Lib.ValueIdx
import Idealize.ShloMosaic.Lib.ValueLayout
import proofs.«145220_j17600775979603_1_alg».proof.Proof.LibRowsProduct
import proofs.«145220_j17600775979603_1_alg».proof.Proof.LibKeepdims
import proofs.«145220_j17600775979603_1_alg».proof.Proof.Layer

set_option maxRecDepth 16384

noncomputable section

namespace Cert.KernelIdeal.Combine3

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

/-- Every access of the body starts at the origin of its staging buffer. -/
theorem origin : (![0, 0] : Fin 2 → Nat) = fun _ => 0 := funext fun a => by fin_cases a <;> rfl

/-- A [1, 128] row broadcast down 5000 rows reads, at (p, q), the row's entry q. -/
theorem row_broadcast_apply (v : S1x128.Idx → EReal) (h : S1x128.Broadcasts S5000x128) (p : Fin 5000) (q : Fin 128) :
    broadcastTo S5000x128 v h (ix2 p q) = v (ix2 (0 : Fin 1) q) := by
  refine broadcastTo_apply v h (ix2 p q) (ix2 (0 : Fin 1) q) fun a => ?_
  match a with
  | ⟨0, _⟩ => show (0 : Nat) = if (1 : Nat) = 1 then 0 else _; rw [if_pos rfl]
  | ⟨1, _⟩ => show q.val = if (128 : Nat) = 1 then 0 else q.val; rw [if_neg (by decide)]

/-- The body's stored value at the entry (p, q) of its block. -/
theorem body_apply (x0 : Vec Ideal S5000x128 .f32) (x2 : Vec Ideal S5000x1 .f32) (x6 : Vec Ideal S1x128 .f32)
    (x10 x15 : Vec Ideal S5000x128 .f32) (p : Fin 5000) (q : Fin 128) :
    k3_pay1 (F := Ideal) x0 x2 x6 x10 x15 (ix2 p q)
      = max ((x10 (ix2 p q) : EReal) + ((x0 (ix2 p q) : EReal) * (x2 (ix2 p (0 : Fin 1)) : EReal) + (x6 (ix2 (0 : Fin 1) q) : EReal)))
          (Ideal.ofBits .f32 0x00000000#32) + (x15 (ix2 p q) : EReal) := by
  have h10 : shapeCast S5000x128 x10 shapeCasts_S5000x128_S5000x128 = x10 := shapeCast_self _ _
  have h0 : shapeCast S5000x128 x0 shapeCasts_S5000x128_S5000x128 = x0 := shapeCast_self _ _
  have h15 : shapeCast S5000x128 x15 shapeCasts_S5000x128_S5000x128 = x15 := shapeCast_self _ _
  have h2 : broadcastTo S5000x128 (shapeCast S5000x1 x2 shapeCasts_S5000x1_S5000x1) broadcasts_S5000x1_S5000x128 (ix2 p q)
      = x2 (ix2 p (0 : Fin 1)) :=
    (Keepdims.broadcastTo_a1_ab_apply _ _ p q).trans (congrFun (shapeCast_self x2 _) _)
  have h6 : broadcastTo S5000x128 (shapeCast S1x128 x6 shapeCasts_S1x128_S1x128) broadcasts_S1x128_S5000x128 (ix2 p q)
      = x6 (ix2 (0 : Fin 1) q) :=
    (row_broadcast_apply _ _ p q).trans (congrFun (shapeCast_self x6 _) _)
  unfold k3_pay1
  show max ((shapeCast S5000x128 x10 shapeCasts_S5000x128_S5000x128 (ix2 p q) : EReal)
      + ((shapeCast S5000x128 x0 shapeCasts_S5000x128_S5000x128 (ix2 p q) : EReal)
          * (broadcastTo S5000x128 (shapeCast S5000x1 x2 shapeCasts_S5000x1_S5000x1) broadcasts_S5000x1_S5000x128 (ix2 p q) : EReal)
        + (broadcastTo S5000x128 (shapeCast S1x128 x6 shapeCasts_S1x128_S1x128) broadcasts_S1x128_S5000x128 (ix2 p q) : EReal)))
      (Ideal.ofBits .f32 0x00000000#32) + (shapeCast S5000x128 x15 shapeCasts_S5000x128_S5000x128 (ix2 p q) : EReal) = _
  rw [h10, h0, h2, h6, h15]

/-- The index maps over the grid: the five row-blocked windows move together, block t at block row t; the bias row
    stays at its one block. -/
theorem index_facts : ∀ t : Fin cfg3.N, win3_5.index t (0 : Fin 2) = t.val ∧ win3_5.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What grid point t writes back is block t of the entrywise function of the whole arrays as the region finds them. -/
theorem flushed_eq (c : Dev nD) (t : Fin cfg3.N) :
    (dat3 V c).flushed 5 t = ((cfg3.win 5).blk t).view.read (Elt Ideal)
      (Gcn.combine (V c main_v51) (V c main_v64) (V c main_v27) (V c main_v67) (Ideal.ofBits .f32 0x00000000#32) (V c main_v48)) := by
  show (cfg3.win 5).cut (grid3.coords t) ((dat3 V c).after 5 t) = _
  rw [after3_5]
  unfold out3_5
  rw [View.canon_unit_zero origin]
  simp only [View.ld_unit_zero (S := S5000x128) origin, View.ld_unit_zero (S := S5000x1) origin,
    View.ld_unit_zero (S := S1x128) origin]
  obtain ⟨o0, o1, a0, a1, b0, b1, s0, s1, r0, r1, h0, h1⟩ := index_facts t
  funext j
  obtain ⟨p, q, rfl⟩ : ∃ (p : Fin 5000) (q : Fin 128), j = ix2 p q := ⟨j 0, j 1, eq_ix2 j⟩
  show k3_pay1 (F := Ideal) (iblk3 V c 0 t) (iblk3 V c 2 t) (iblk3 V c 3 t) (iblk3 V c 1 t) (iblk3 V c 4 t) (ix2 p q)
    = Gcn.combine (V c main_v51) (V c main_v64) (V c main_v27) (V c main_v67) (Ideal.ofBits .f32 0x00000000#32) (V c main_v48)
        (((cfg3.win 5).blk t).view.emb (ix2 p q))
  refine (body_apply (iblk3 V c 0 t) (iblk3 V c 2 t) (iblk3 V c 3 t) (iblk3 V c 1 t) (iblk3 V c 4 t) p q).trans ?_
  have ht : iblk3 V c 0 t (ix2 p q) = V c main_v51 (((cfg3.win 5).blk t).view.emb (ix2 p q)) := by
    show V c main_v51 (((cfg3.win 0).blk t).view.emb (ix2 p q)) = _
    refine congrArg (V c main_v51) (funext fun a => Fin.ext ?_)
    match a with
    | ⟨0, _⟩ => show win3_0.index t (0 : Fin 2) * 5000 + 1 * p.val = win3_5.index t (0 : Fin 2) * 5000 + 1 * p.val; omega
    | ⟨1, _⟩ => show win3_0.index t (1 : Fin 2) * 128 + 1 * q.val = win3_5.index t (1 : Fin 2) * 128 + 1 * q.val; omega
  have hg : iblk3 V c 1 t (ix2 p q) = V c main_v64 (((cfg3.win 5).blk t).view.emb (ix2 p q)) := by
    show V c main_v64 (((cfg3.win 1).blk t).view.emb (ix2 p q)) = _
    refine congrArg (V c main_v64) (funext fun a => Fin.ext ?_)
    match a with
    | ⟨0, _⟩ => show win3_1.index t (0 : Fin 2) * 5000 + 1 * p.val = win3_5.index t (0 : Fin 2) * 5000 + 1 * p.val; omega
    | ⟨1, _⟩ => show win3_1.index t (1 : Fin 2) * 128 + 1 * q.val = win3_5.index t (1 : Fin 2) * 128 + 1 * q.val; omega
  have hh : iblk3 V c 4 t (ix2 p q) = V c main_v48 (((cfg3.win 5).blk t).view.emb (ix2 p q)) := by
    show V c main_v48 (((cfg3.win 4).blk t).view.emb (ix2 p q)) = _
    refine congrArg (V c main_v48) (funext fun a => Fin.ext ?_)
    match a with
    | ⟨0, _⟩ => show win3_4.index t (0 : Fin 2) * 5000 + 1 * p.val = win3_5.index t (0 : Fin 2) * 5000 + 1 * p.val; omega
    | ⟨1, _⟩ => show win3_4.index t (1 : Fin 2) * 128 + 1 * q.val = win3_5.index t (1 : Fin 2) * 128 + 1 * q.val; omega
  have hs : iblk3 V c 2 t (ix2 p (0 : Fin 1))
      = V c main_v27 (ix2 ((((cfg3.win 5).blk t).view.emb (ix2 p q)) 0) (0 : Fin 1)) := by
    show V c main_v27 (((cfg3.win 2).blk t).view.emb (ix2 p (0 : Fin 1))) = _
    refine congrArg (V c main_v27) (funext fun a => Fin.ext ?_)
    match a with
    | ⟨0, _⟩ => show win3_2.index t (0 : Fin 2) * 5000 + 1 * p.val = win3_5.index t (0 : Fin 2) * 5000 + 1 * p.val; omega
    | ⟨1, _⟩ => show win3_2.index t (1 : Fin 2) * 1 + 1 * 0 = 0; omega
  have hb : iblk3 V c 3 t (ix2 (0 : Fin 1) q)
      = V c main_v67 (ix2 (0 : Fin 1) ((((cfg3.win 5).blk t).view.emb (ix2 p q)) 1)) := by
    show V c main_v67 (((cfg3.win 3).blk t).view.emb (ix2 (0 : Fin 1) q)) = _
    refine congrArg (V c main_v67) (funext fun a => Fin.ext ?_)
    match a with
    | ⟨0, _⟩ => show win3_3.index t (0 : Fin 2) * 1 + 1 * 0 = 0; omega
    | ⟨1, _⟩ => show win3_3.index t (1 : Fin 2) * 128 + 1 * q.val = win3_5.index t (1 : Fin 2) * 128 + 1 * q.val; omega
  rw [ht, hg, hh, hs, hb]
  rfl

/-- An entry of the result array lies in point t's block iff each coordinate lies in the block's range. -/
theorem mem_block (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v68).slice (win3_5.rect t)).set ↔ _
  rw [View.set_slice_whole, Rect.mem_set_unit]
  exact Iff.rfl

/-- Every entry is written: row r lies in the block of point r / 5000. -/
theorem covered (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 20 := N_3
  have ht : (i 0).val / 5000 < cfg3.N := by show (i 0).val / 5000 < grid3.N; rw [hN]; omega
  obtain ⟨o0, o1, -⟩ := index_facts ⟨(i 0).val / 5000, ht⟩
  refine ⟨⟨(i 0).val / 5000, ht⟩, flush3_5 _, ?_⟩
  rw [mem_block]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [o1]; omega

/-- The result array after the region: the entrywise function of the arrays the region found. -/
theorem final (c : Dev nD) : (dat3 V c).arrAt 5 cfg3.N
    = Gcn.combine (V c main_v51) (V c main_v64) (V c main_v27) (V c main_v67) (Ideal.ofBits .f32 0x00000000#32) (V c main_v48) :=
  (dat3 V c).arrAt_eq_of_cover 5 _ (fun t _ => flushed_eq V c t) covered

end Cert.KernelIdeal.Combine3

end
-- ==== Proof.Product0.lean ====
/-
  Pallas call 0: the rows of a [100000, 128] matrix times a [128, 128] matrix, twenty blocks of 5000 rows.

  Grid point t stages rows 5000 t … 5000 t + 4999 of the left matrix and the whole right matrix, multiplies them
  (the operands' change of float format is the identity on the extended reals, the accumulator starts at the zero
  word) and writes the product back as the same rows of the result. An entry of a product reads one row of the left
  operand and one column of the right one, so each block of the result is the block of the ONE product of the whole
  matrices; the twenty blocks cover every row, so the result array ends holding that product.
-/
import proofs.«145220_j17600775979603_1_alg».proof.Proof.Gen.KernelIdeal.Frame
import Idealize.ShloMosaic.Lib.Pipeline.Value
import Idealize.ShloMosaic.Lib.ValueIdx
import Idealize.ShloMosaic.Lib.ValueLayout
import proofs.«145220_j17600775979603_1_alg».proof.Proof.LibRowsProduct
import proofs.«145220_j17600775979603_1_alg».proof.Proof.LibKeepdims

set_option maxRecDepth 16384

noncomputable section

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

/-- Every access of the body starts at the origin of its staging buffer. -/
theorem origin : (![0, 0] : Fin 2 → Nat) = fun _ => 0 := funext fun a => by fin_cases a <;> rfl

/-- The body's stored value at an entry: the sum over k of (row entry k) * (column entry k). -/
theorem body_apply (x0 : Vec Ideal S5000x128 .f32) (x1 : Vec Ideal S128x128 .bf16) (j : S5000x128.Idx) :
    k0_pay1 (F := Ideal) x0 x1 j = ∑ k : Fin 128, (x0 (ix2 (j 0) k) : EReal) * (x1 (ix2 k (j 1)) : EReal) := by
  unfold k0_pay1
  refine (PlainDot.matmul_zero_apply 5000 128 128 none _ _ j).trans ?_
  refine Finset.sum_congr rfl fun k _ => ?_
  rw [shapeCast_self]
  rfl

/-- The index maps over the grid: the left operand and the result move together down the rows, block t at block
    row t; the right operand stays at its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the whole matrices as the region finds them. -/
theorem flushed_eq (c : Dev nD) (t : Fin cfg0.N) :
    (dat0 V c).flushed 2 t = ((cfg0.win 2).blk t).view.read (Elt Ideal)
      (RowsProduct.prod 100000 128 128 (V c main_arg0) (V c main_v30)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := index_facts t
  funext j
  show k0_pay1 (F := Ideal) (iblk0 V c 0 t) (iblk0 V c 1 t) j
    = RowsProduct.prod 100000 128 128 (V c main_arg0) (V c main_v30) (((cfg0.win 2).blk t).view.emb j)
  refine (body_apply (iblk0 V c 0 t) (iblk0 V c 1 t) j).trans ?_
  refine Finset.sum_congr rfl fun k _ => ?_
  have hl : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : iblk0 V c 1 t (ix2 k (j 1)) = V c main_v30 (ix2 k ((((cfg0.win 2).blk t).view.emb j) 1)) := by
    show V c main_v30 (((cfg0.win 1).blk t).view.emb (ix2 k (j 1))) = _
    refine congrArg (V c main_v30) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hl, hr]

/-- An entry of the result array lies in point t's block iff each coordinate lies in the block's range. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- Every entry is written: row r lies in the block of point r / 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; rw [hN]; omega
  obtain ⟨e0, e1, e2, e3, e4, e5⟩ := index_facts ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- The result array after the region: the product of the two matrices the region found. -/
theorem final (c : Dev nD) : (dat0 V c).arrAt 2 cfg0.N
    = RowsProduct.prod 100000 128 128 (V c main_arg0) (V c main_v30) :=
  (dat0 V c).arrAt_eq_of_cover 2 _ (fun t _ => flushed_eq V c t) covered

end Cert.KernelIdeal.Product0

end
-- ==== Proof.Combine1.lean ====
/-
  Pallas call 1: the entrywise half of a layer on twenty blocks of 5000 rows.

  Grid point t stages rows 5000 t … 5000 t + 4999 of the transformed features, of their aggregation and of the layer's
  input, the same rows of the self-loop column [100000, 1], and the one bias row [1, 128]; at the entry (r, c) it
  stores  max (agg + (t * sn r + b c)) 0 + h  and writes the block back as the same rows of the result. Every operand
  is read at the entry's own row and column, so each block of the result is the block of ONE entrywise function of the
  whole arrays; the twenty blocks cover every row, so the result array ends holding that function.
-/
import proofs.«145220_j17600775979603_1_alg».proof.Proof.Gen.KernelIdeal.Frame
import Idealize.ShloMosaic.Lib.Pipeline.Value
import Idealize.ShloMosaic.Lib.ValueIdx
import Idealize.ShloMosaic.Lib.ValueLayout
import proofs.«145220_j17600775979603_1_alg».proof.Proof.LibRowsProduct
import proofs.«145220_j17600775979603_1_alg».proof.Proof.LibKeepdims
import proofs.«145220_j17600775979603_1_alg».proof.Proof.Layer

set_option maxRecDepth 16384

noncomputable section

namespace Cert.KernelIdeal.Combine1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered
variable (V : (c : Dev nD) → (b : Ref sig .tc) → Buf (Elt Ideal) ((c : Thread nD τ).loc b))

/-- Every access of the body starts at the origin of its staging buffer. -/
theorem origin : (![0, 0] : Fin 2 → Nat) = fun _ => 0 := funext fun a => by fin_cases a <;> rfl

/-- A [1, 128] row broadcast down 5000 rows reads, at (p, q), the row's entry q. -/
theorem row_broadcast_apply (v : S1x128.Idx → EReal) (h : S1x128.Broadcasts S5000x128) (p : Fin 5000) (q : Fin 128) :
    broadcastTo S5000x128 v h (ix2 p q) = v (ix2 (0 : Fin 1) q) := by
  refine broadcastTo_apply v h (ix2 p q) (ix2 (0 : Fin 1) q) fun a => ?_
  match a with
  | ⟨0, _⟩ => show (0 : Nat) = if (1 : Nat) = 1 then 0 else _; rw [if_pos rfl]
  | ⟨1, _⟩ => show q.val = if (128 : Nat) = 1 then 0 else q.val; rw [if_neg (by decide)]

/-- The body's stored value at the entry (p, q) of its block. -/
theorem body_apply (x0 : Vec Ideal S5000x128 .f32) (x2 : Vec Ideal S5000x1 .f32) (x6 : Vec Ideal S1x128 .f32)
    (x10 x15 : Vec Ideal S5000x128 .f32) (p : Fin 5000) (q : Fin 128) :
    k1_pay1 (F := Ideal) x0 x2 x6 x10 x15 (ix2 p q)
      = max ((x10 (ix2 p q) : EReal) + ((x0 (ix2 p q) : EReal) * (x2 (ix2 p (0 : Fin 1)) : EReal) + (x6 (ix2 (0 : Fin 1) q) : EReal)))
          (Ideal.ofBits .f32 0x00000000#32) + (x15 (ix2 p q) : EReal) := by
  have h10 : shapeCast S5000x128 x10 shapeCasts_S5000x128_S5000x128 = x10 := shapeCast_self _ _
  have h0 : shapeCast S5000x128 x0 shapeCasts_S5000x128_S5000x128 = x0 := shapeCast_self _ _
  have h2 : broadcastTo S5000x128 (shapeCast S5000x1 x2 shapeCasts_S5000x1_S5000x1) broadcasts_S5000x1_S5000x128 (ix2 p q)
      = x2 (ix2 p (0 : Fin 1)) :=
    (Keepdims.broadcastTo_a1_ab_apply _ _ p q).trans (congrFun (shapeCast_self x2 _) _)
  have h6 : broadcastTo S5000x128 (shapeCast S1x128 x6 shapeCasts_S1x128_S1x128) broadcasts_S1x128_S5000x128 (ix2 p q)
      = x6 (ix2 (0 : Fin 1) q) :=
    (row_broadcast_apply _ _ p q).trans (congrFun (shapeCast_self x6 _) _)
  unfold k1_pay1
  show max ((shapeCast S5000x128 x10 shapeCasts_S5000x128_S5000x128 (ix2 p q) : EReal)
      + ((shapeCast S5000x128 x0 shapeCasts_S5000x128_S5000x128 (ix2 p q) : EReal)
          * (broadcastTo S5000x128 (shapeCast S5000x1 x2 shapeCasts_S5000x1_S5000x1) broadcasts_S5000x1_S5000x128 (ix2 p q) : EReal)
        + (broadcastTo S5000x128 (shapeCast S1x128 x6 shapeCasts_S1x128_S1x128) broadcasts_S1x128_S5000x128 (ix2 p q) : EReal)))
      (Ideal.ofBits .f32 0x00000000#32) + (x15 (ix2 p q) : EReal) = _
  rw [h10, h0, h2, h6]

/-- The index maps over the grid: the five row-blocked windows move together, block t at block row t; the bias row
    stays at its one block. -/
theorem index_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point t writes back is block t of the entrywise function of the whole arrays as the region finds them. -/
theorem flushed_eq (c : Dev nD) (t : Fin cfg1.N) :
    (dat1 V c).flushed 5 t = ((cfg1.win 5).blk t).view.read (Elt Ideal)
      (Gcn.combine (V c main_v31) (V c main_v44) (V c main_v27) (V c main_v47) (Ideal.ofBits .f32 0x00000000#32) (V c main_arg0)) := by
  show (cfg1.win 5).cut (grid1.coords t) ((dat1 V c).after 5 t) = _
  rw [after1_5]
  unfold out1_5
  rw [View.canon_unit_zero origin]
  simp only [View.ld_unit_zero (S := S5000x128) origin, View.ld_unit_zero (S := S5000x1) origin,
    View.ld_unit_zero (S := S1x128) origin]
  obtain ⟨o0, o1, a0, a1, b0, b1, s0, s1, r0, r1, h0, h1⟩ := index_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 2 t) (iblk1 V c 3 t) (iblk1 V c 1 t) (iblk1 V c 4 t) (ix2 p q)
    = Gcn.combine (V c main_v31) (V c main_v44) (V c main_v27) (V c main_v47) (Ideal.ofBits .f32 0x00000000#32) (V c main_arg0)
        (((cfg1.win 5).blk t).view.emb (ix2 p q))
  refine (body_apply (iblk1 V c 0 t) (iblk1 V c 2 t) (iblk1 V c 3 t) (iblk1 V c 1 t) (iblk1 V c 4 t) p q).trans ?_
  have ht : iblk1 V c 0 t (ix2 p q) = V c main_v31 (((cfg1.win 5).blk t).view.emb (ix2 p q)) := by
    show V c main_v31 (((cfg1.win 0).blk t).view.emb (ix2 p q)) = _
    refine congrArg (V c main_v31) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  have hg : iblk1 V c 1 t (ix2 p q) = V c main_v44 (((cfg1.win 5).blk t).view.emb (ix2 p q)) := by
    show V c main_v44 (((cfg1.win 1).blk t).view.emb (ix2 p q)) = _
    refine congrArg (V c main_v44) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * q.val = win1_5.index t (1 : Fin 2) * 128 + 1 * q.val; omega
  have hh : iblk1 V c 4 t (ix2 p q) = V c main_arg0 (((cfg1.win 5).blk t).view.emb (ix2 p q)) := by
    show V c main_arg0 (((cfg1.win 4).blk t).view.emb (ix2 p q)) = _
    refine congrArg (V c main_arg0) (funext fun a => Fin.ext ?_)
    match a with
    | ⟨0, _⟩ => show win1_4.index t (0 : Fin 2) * 5000 + 1 * p.val = win1_5.index t (0 : Fin 2) * 5000 + 1 * p.val; omega
    | ⟨1, _⟩ => show win1_4.index t (1 : Fin 2) * 128 + 1 * q.val = win1_5.index t (1 : Fin 2) * 128 + 1 * q.val; omega
  have hs : iblk1 V c 2 t (ix2 p (0 : Fin 1))
      = V c main_v27 (ix2 ((((cfg1.win 5).blk t).view.emb (ix2 p q)) 0) (0 : Fin 1)) := by
    show V c main_v27 (((cfg1.win 2).blk t).view.emb (ix2 p (0 : Fin 1))) = _
    refine congrArg (V c main_v27) (funext fun a => Fin.ext ?_)
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  have hb : iblk1 V c 3 t (ix2 (0 : Fin 1) q)
      = V c main_v47 (ix2 (0 : Fin 1) ((((cfg1.win 5).blk t).view.emb (ix2 p q)) 1)) := by
    show V c main_v47 (((cfg1.win 3).blk t).view.emb (ix2 (0 : Fin 1) q)) = _
    refine congrArg (V c main_v47) (funext fun a => Fin.ext ?_)
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  rw [ht, hg, hh, hs, hb]
  rfl

/-- An entry of the result array lies in point t's block iff each coordinate lies in the block's range. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v48).slice (win1_5.rect t)).set ↔ _
  rw [View.set_slice_whole, Rect.mem_set_unit]
  exact Iff.rfl

/-- Every entry is written: row r lies in the block of point r / 5000. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; rw [hN]; omega
  obtain ⟨o0, o1, -⟩ := index_facts ⟨(i 0).val / 5000, ht⟩
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [o1]; omega

/-- The result array after the region: the entrywise function of the arrays the region found. -/
theorem final (c : Dev nD) : (dat1 V c).arrAt 5 cfg1.N
    = Gcn.combine (V c main_v31) (V c main_v44) (V c main_v27) (V c main_v47) (Ideal.ofBits .f32 0x00000000#32) (V c main_arg0) :=
  (dat1 V c).arrAt_eq_of_cover 5 _ (fun t _ => flushed_eq V c t) covered

end Cert.KernelIdeal.Combine1

end
-- ==== Proof.KernelLayer0.lean ====
/-
  Layer 1 of the kernel, boundary by boundary: the product call, the stretch of host operations that aggregates
  the product over the edges and cuts out the bias row, the combine call.

  The product call leaves the product of the layer's input with its weight matrix and touches nothing else that is
  read later; the stretch gathers the product's rows at the edges' sources, scales them by the normalised weights and
  adds them into the destinations' rows — the one aggregation the reference performs — ; the combine call leaves
  one step of the layer. Each buffer read later is followed through the boundary: unwritten by the stretch, and
  either outside the call's arrays or an input of it, which a call leaves as it found it.
-/
import proofs.«145220_j17600775979603_1_alg».proof.Proof.KernelHost
import proofs.«145220_j17600775979603_1_alg».proof.Proof.Product0
import proofs.«145220_j17600775979603_1_alg».proof.Proof.Combine1
set_option maxRecDepth 16384

noncomputable section

namespace Cert.KernelIdeal.Step0

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- Entering the product call: what persists, the layer's input and its weight matrix. -/
theorem kept_a : Host.Kept (m ((c : Thread nD τ).loc main_arg1)) (m ((c : Thread nD τ).loc main_arg2)) (m ((c : Thread nD τ).loc main_arg3)) (m ((c : Thread nD τ).loc main_arg4)) (W1 m ρ c) := Host.first_kept m ρ c
theorem input_a : W1 m ρ c (Proc.devRef .tc main_arg0) = Host.feat0 m c := Host.first_input m ρ c
theorem weights_a : W1 m ρ c (Proc.devRef .tc main_v30) = Host.w0 (m ((c : Thread nD τ).loc main_arg3)) := Host.first_weights m ρ c

/-- Leaving the product call: the product of the input with the weights; -/
theorem product_b : W2 m ρ c (Proc.devRef .tc main_v31)
    = RowsProduct.prod 100000 128 128 (Host.feat0 m c) (Host.w0 (m ((c : Thread nD τ).loc main_arg3))) := by
  refine (W2_arr m ρ c 2).trans ((Product0.final (V1 m ρ) c).trans ?_)
  show RowsProduct.prod 100000 128 128 (W1 m ρ c (Proc.devRef .tc main_arg0)) (W1 m ρ c (Proc.devRef .tc main_v30)) = _
  rw [input_a m ρ c, weights_a m ρ c]
/-- the input, an operand of the call, as it was; -/
theorem input_b : W2 m ρ c (Proc.devRef .tc main_arg0) = Host.feat0 m c :=
  ((W2_arr m ρ c 0).trans (((dat0 (V1 m ρ) c).arrAt_in 0 rfl _).trans (A_eq0 (V1 m ρ) c 0))).trans (input_a m ρ c)
/-- what persists, outside the call's arrays. -/
theorem kept_b : Host.Kept (m ((c : Thread nD τ).loc main_arg1)) (m ((c : Thread nD τ).loc main_arg2)) (m ((c : Thread nD τ).loc main_arg3)) (m ((c : Thread nD τ).loc main_arg4)) (W2 m ρ c) where
  hsrc := (W2_of_ne m ρ c main_v1 (by decide)).trans (kept_a m ρ c).hsrc
  hdst := (W2_of_ne m ρ c main_v3 (by decide)).trans (kept_a m ρ c).hdst
  hnorm := (W2_of_ne m ρ c main_v25 (by decide)).trans (kept_a m ρ c).hnorm
  hcol := (W2_of_ne m ρ c main_v27 (by decide)).trans (kept_a m ρ c).hcol
  hwts := (W2_of_ne m ρ c main_v28 (by decide)).trans (kept_a m ρ c).hwts
  hbs := (W2_of_ne m ρ c main_arg4 (by decide)).trans (kept_a m ρ c).hbs

/-- Entering the combine call, after the aggregation's stretch: what persists, -/
theorem kept_c : Host.Kept (m ((c : Thread nD τ).loc main_arg1)) (m ((c : Thread nD τ).loc main_arg2)) (m ((c : Thread nD τ).loc main_arg3)) (m ((c : Thread nD τ).loc main_arg4)) (W3 m ρ c) where
  hsrc := by show StableHlo.after hostOps1 (W2 m ρ c) (Proc.devRef .tc main_v1) = _; after_results; exact (kept_b m ρ c).hsrc
  hdst := by show StableHlo.after hostOps1 (W2 m ρ c) (Proc.devRef .tc main_v3) = _; after_results; exact (kept_b m ρ c).hdst
  hnorm := by show StableHlo.after hostOps1 (W2 m ρ c) (Proc.devRef .tc main_v25) = _; after_results; exact (kept_b m ρ c).hnorm
  hcol := by show StableHlo.after hostOps1 (W2 m ρ c) (Proc.devRef .tc main_v27) = _; after_results; exact (kept_b m ρ c).hcol
  hwts := by show StableHlo.after hostOps1 (W2 m ρ c) (Proc.devRef .tc main_v28) = _; after_results; exact (kept_b m ρ c).hwts
  hbs := by show StableHlo.after hostOps1 (W2 m ρ c) (Proc.devRef .tc main_arg4) = _; after_results; exact (kept_b m ρ c).hbs
/-- the product and the input, untouched, -/
theorem product_c : W3 m ρ c (Proc.devRef .tc main_v31)
    = RowsProduct.prod 100000 128 128 (Host.feat0 m c) (Host.w0 (m ((c : Thread nD τ).loc main_arg3))) := by
  show StableHlo.after hostOps1 (W2 m ρ c) (Proc.devRef .tc main_v31) = _; after_results; exact product_b m ρ c
theorem input_c : W3 m ρ c (Proc.devRef .tc main_arg0) = Host.feat0 m c := by
  show StableHlo.after hostOps1 (W2 m ρ c) (Proc.devRef .tc main_arg0) = _; after_results; exact input_b m ρ c
set_option maxHeartbeats 1000000 in
/-- the product aggregated over the edges, -/
theorem agg_c : W3 m ρ c (Proc.devRef .tc main_v44)
    = Cert.ReferenceIdeal.Graph.agg (m ((c : Thread nD τ).loc main_arg1)) (m ((c : Thread nD τ).loc main_arg2)) (RowsProduct.prod 100000 128 128 (Host.feat0 m c) (Host.w0 (m ((c : Thread nD τ).loc main_arg3)))) := by
  show StableHlo.after hostOps1 (W2 m ρ c) (Proc.devRef .tc main_v44) = _; after_results_simp
  rw [(kept_b m ρ c).hsrc, (kept_b m ρ c).hdst, (kept_b m ρ c).hnorm, product_b m ρ c]; rfl
/-- and the layer's bias row. -/
theorem bias_c : W3 m ρ c (Proc.devRef .tc main_v47) = Host.bias0 (m ((c : Thread nD τ).loc main_arg4)) := by
  show StableHlo.after hostOps1 (W2 m ρ c) (Proc.devRef .tc main_v47) = _; after_results
  rw [(kept_b m ρ c).hbs]; rfl

/-- Leaving the combine call: one more layer of the kernel; -/
theorem output_d : W4 m ρ c (Proc.devRef .tc main_v48) = Host.feat1 m c := by
  refine (W4_arr m ρ c 5).trans ((Combine1.final (V3 m ρ) c).trans ?_)
  show Gcn.combine (W3 m ρ c (Proc.devRef .tc main_v31)) (W3 m ρ c (Proc.devRef .tc main_v44))
    (W3 m ρ c (Proc.devRef .tc main_v27)) (W3 m ρ c (Proc.devRef .tc main_v47)) (Ideal.ofBits .f32 0x00000000#32)
    (W3 m ρ c (Proc.devRef .tc main_arg0)) = _
  rw [product_c m ρ c, agg_c m ρ c, (kept_c m ρ c).hcol, bias_c m ρ c, input_c m ρ c]; rfl
/-- what persists: the self-loop column is an operand of the call, the others lie outside its arrays. -/
theorem kept_d : Host.Kept (m ((c : Thread nD τ).loc main_arg1)) (m ((c : Thread nD τ).loc main_arg2)) (m ((c : Thread nD τ).loc main_arg3)) (m ((c : Thread nD τ).loc main_arg4)) (W4 m ρ c) where
  hsrc := (W4_of_ne m ρ c main_v1 (by decide)).trans (kept_c m ρ c).hsrc
  hdst := (W4_of_ne m ρ c main_v3 (by decide)).trans (kept_c m ρ c).hdst
  hnorm := (W4_of_ne m ρ c main_v25 (by decide)).trans (kept_c m ρ c).hnorm
  hcol := ((W4_arr m ρ c 2).trans (((dat1 (V3 m ρ) c).arrAt_in 2 rfl _).trans (A_eq1 (V3 m ρ) c 2))).trans (kept_c m ρ c).hcol
  hwts := (W4_of_ne m ρ c main_v28 (by decide)).trans (kept_c m ρ c).hwts
  hbs := (W4_of_ne m ρ c main_arg4 (by decide)).trans (kept_c m ρ c).hbs

end Cert.KernelIdeal.Step0

end
-- ==== Proof.KernelLayer1.lean ====
/-
  Layer 2 of the kernel, boundary by boundary: the product call, the stretch of host operations that aggregates
  the product over the edges and cuts out the bias row, the combine call.

  The product call leaves the product of the layer's input with its weight matrix and touches nothing else that is
  read later; the stretch gathers the product's rows at the edges' sources, scales them by the normalised weights and
  adds them into the destinations' rows — the one aggregation the reference performs — ; the combine call leaves
  one step of the layer. Each buffer read later is followed through the boundary: unwritten by the stretch, and
  either outside the call's arrays or an input of it, which a call leaves as it found it.
-/
import proofs.«145220_j17600775979603_1_alg».proof.Proof.KernelHost
import proofs.«145220_j17600775979603_1_alg».proof.Proof.Product2
import proofs.«145220_j17600775979603_1_alg».proof.Proof.Combine3
import proofs.«145220_j17600775979603_1_alg».proof.Proof.KernelLayer0
set_option maxRecDepth 16384

noncomputable section

namespace Cert.KernelIdeal.Step1

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- Entering the product call, after the two operations that cut out the layer's weight matrix: what persists, -/
theorem kept_a : Host.Kept (m ((c : Thread nD τ).loc main_arg1)) (m ((c : Thread nD τ).loc main_arg2)) (m ((c : Thread nD τ).loc main_arg3)) (m ((c : Thread nD τ).loc main_arg4)) (W5 m ρ c) where
  hsrc := by show StableHlo.after hostOps2 (W4 m ρ c) (Proc.devRef .tc main_v1) = _; after_results; exact (Step0.kept_d m ρ c).hsrc
  hdst := by show StableHlo.after hostOps2 (W4 m ρ c) (Proc.devRef .tc main_v3) = _; after_results; exact (Step0.kept_d m ρ c).hdst
  hnorm := by show StableHlo.after hostOps2 (W4 m ρ c) (Proc.devRef .tc main_v25) = _; after_results; exact (Step0.kept_d m ρ c).hnorm
  hcol := by show StableHlo.after hostOps2 (W4 m ρ c) (Proc.devRef .tc main_v27) = _; after_results; exact (Step0.kept_d m ρ c).hcol
  hwts := by show StableHlo.after hostOps2 (W4 m ρ c) (Proc.devRef .tc main_v28) = _; after_results; exact (Step0.kept_d m ρ c).hwts
  hbs := by show StableHlo.after hostOps2 (W4 m ρ c) (Proc.devRef .tc main_arg4) = _; after_results; exact (Step0.kept_d m ρ c).hbs
/-- the layer's input (the previous layer's result, untouched), -/
theorem input_a : W5 m ρ c (Proc.devRef .tc main_v48) = Host.feat1 m c := by
  show StableHlo.after hostOps2 (W4 m ρ c) (Proc.devRef .tc main_v48) = _; after_results; exact Step0.output_d m ρ c
/-- and its weight matrix. -/
theorem weights_a : W5 m ρ c (Proc.devRef .tc main_v50) = Host.w1 (m ((c : Thread nD τ).loc main_arg3)) := by
  show StableHlo.after hostOps2 (W4 m ρ c) (Proc.devRef .tc main_v50) = _; after_results
  rw [(Step0.kept_d m ρ c).hwts]; rfl

/-- Leaving the product call: the product of the input with the weights; -/
theorem product_b : W6 m ρ c (Proc.devRef .tc main_v51)
    = RowsProduct.prod 100000 128 128 (Host.feat1 m c) (Host.w1 (m ((c : Thread nD τ).loc main_arg3))) := by
  refine (W6_arr m ρ c 2).trans ((Product2.final (V5 m ρ) c).trans ?_)
  show RowsProduct.prod 100000 128 128 (W5 m ρ c (Proc.devRef .tc main_v48)) (W5 m ρ c (Proc.devRef .tc main_v50)) = _
  rw [input_a m ρ c, weights_a m ρ c]
/-- the input, an operand of the call, as it was; -/
theorem input_b : W6 m ρ c (Proc.devRef .tc main_v48) = Host.feat1 m c :=
  ((W6_arr m ρ c 0).trans (((dat2 (V5 m ρ) c).arrAt_in 0 rfl _).trans (A_eq2 (V5 m ρ) c 0))).trans (input_a m ρ c)
/-- what persists, outside the call's arrays. -/
theorem kept_b : Host.Kept (m ((c : Thread nD τ).loc main_arg1)) (m ((c : Thread nD τ).loc main_arg2)) (m ((c : Thread nD τ).loc main_arg3)) (m ((c : Thread nD τ).loc main_arg4)) (W6 m ρ c) where
  hsrc := (W6_of_ne m ρ c main_v1 (by decide)).trans (kept_a m ρ c).hsrc
  hdst := (W6_of_ne m ρ c main_v3 (by decide)).trans (kept_a m ρ c).hdst
  hnorm := (W6_of_ne m ρ c main_v25 (by decide)).trans (kept_a m ρ c).hnorm
  hcol := (W6_of_ne m ρ c main_v27 (by decide)).trans (kept_a m ρ c).hcol
  hwts := (W6_of_ne m ρ c main_v28 (by decide)).trans (kept_a m ρ c).hwts
  hbs := (W6_of_ne m ρ c main_arg4 (by decide)).trans (kept_a m ρ c).hbs

/-- Entering the combine call, after the aggregation's stretch: what persists, -/
theorem kept_c : Host.Kept (m ((c : Thread nD τ).loc main_arg1)) (m ((c : Thread nD τ).loc main_arg2)) (m ((c : Thread nD τ).loc main_arg3)) (m ((c : Thread nD τ).loc main_arg4)) (W7 m ρ c) where
  hsrc := by show StableHlo.after hostOps3 (W6 m ρ c) (Proc.devRef .tc main_v1) = _; after_results; exact (kept_b m ρ c).hsrc
  hdst := by show StableHlo.after hostOps3 (W6 m ρ c) (Proc.devRef .tc main_v3) = _; after_results; exact (kept_b m ρ c).hdst
  hnorm := by show StableHlo.after hostOps3 (W6 m ρ c) (Proc.devRef .tc main_v25) = _; after_results; exact (kept_b m ρ c).hnorm
  hcol := by show StableHlo.after hostOps3 (W6 m ρ c) (Proc.devRef .tc main_v27) = _; after_results; exact (kept_b m ρ c).hcol
  hwts := by show StableHlo.after hostOps3 (W6 m ρ c) (Proc.devRef .tc main_v28) = _; after_results; exact (kept_b m ρ c).hwts
  hbs := by show StableHlo.after hostOps3 (W6 m ρ c) (Proc.devRef .tc main_arg4) = _; after_results; exact (kept_b m ρ c).hbs
/-- the product and the input, untouched, -/
theorem product_c : W7 m ρ c (Proc.devRef .tc main_v51)
    = RowsProduct.prod 100000 128 128 (Host.feat1 m c) (Host.w1 (m ((c : Thread nD τ).loc main_arg3))) := by
  show StableHlo.after hostOps3 (W6 m ρ c) (Proc.devRef .tc main_v51) = _; after_results; exact product_b m ρ c
theorem input_c : W7 m ρ c (Proc.devRef .tc main_v48) = Host.feat1 m c := by
  show StableHlo.after hostOps3 (W6 m ρ c) (Proc.devRef .tc main_v48) = _; after_results; exact input_b m ρ c
set_option maxHeartbeats 1000000 in
/-- the product aggregated over the edges, -/
theorem agg_c : W7 m ρ c (Proc.devRef .tc main_v64)
    = Cert.ReferenceIdeal.Graph.agg (m ((c : Thread nD τ).loc main_arg1)) (m ((c : Thread nD τ).loc main_arg2)) (RowsProduct.prod 100000 128 128 (Host.feat1 m c) (Host.w1 (m ((c : Thread nD τ).loc main_arg3)))) := by
  show StableHlo.after hostOps3 (W6 m ρ c) (Proc.devRef .tc main_v64) = _; after_results_simp
  rw [(kept_b m ρ c).hsrc, (kept_b m ρ c).hdst, (kept_b m ρ c).hnorm, product_b m ρ c]; rfl
/-- and the layer's bias row. -/
theorem bias_c : W7 m ρ c (Proc.devRef .tc main_v67) = Host.bias1 (m ((c : Thread nD τ).loc main_arg4)) := by
  show StableHlo.after hostOps3 (W6 m ρ c) (Proc.devRef .tc main_v67) = _; after_results
  rw [(kept_b m ρ c).hbs]; rfl

/-- Leaving the combine call: one more layer of the kernel; -/
theorem output_d : W8 m ρ c (Proc.devRef .tc main_v68) = Host.feat2 m c := by
  refine (W8_arr m ρ c 5).trans ((Combine3.final (V7 m ρ) c).trans ?_)
  show Gcn.combine (W7 m ρ c (Proc.devRef .tc main_v51)) (W7 m ρ c (Proc.devRef .tc main_v64))
    (W7 m ρ c (Proc.devRef .tc main_v27)) (W7 m ρ c (Proc.devRef .tc main_v67)) (Ideal.ofBits .f32 0x00000000#32)
    (W7 m ρ c (Proc.devRef .tc main_v48)) = _
  rw [product_c m ρ c, agg_c m ρ c, (kept_c m ρ c).hcol, bias_c m ρ c, input_c m ρ c]; rfl
/-- what persists: the self-loop column is an operand of the call, the others lie outside its arrays. -/
theorem kept_d : Host.Kept (m ((c : Thread nD τ).loc main_arg1)) (m ((c : Thread nD τ).loc main_arg2)) (m ((c : Thread nD τ).loc main_arg3)) (m ((c : Thread nD τ).loc main_arg4)) (W8 m ρ c) where
  hsrc := (W8_of_ne m ρ c main_v1 (by decide)).trans (kept_c m ρ c).hsrc
  hdst := (W8_of_ne m ρ c main_v3 (by decide)).trans (kept_c m ρ c).hdst
  hnorm := (W8_of_ne m ρ c main_v25 (by decide)).trans (kept_c m ρ c).hnorm
  hcol := ((W8_arr m ρ c 2).trans (((dat3 (V7 m ρ) c).arrAt_in 2 rfl _).trans (A_eq3 (V7 m ρ) c 2))).trans (kept_c m ρ c).hcol
  hwts := (W8_of_ne m ρ c main_v28 (by decide)).trans (kept_c m ρ c).hwts
  hbs := (W8_of_ne m ρ c main_arg4 (by decide)).trans (kept_c m ρ c).hbs

end Cert.KernelIdeal.Step1

end
-- ==== Proof.KernelLayer2.lean ====
/-
  Layer 3 of the kernel, boundary by boundary: the product call, the stretch of host operations that aggregates
  the product over the edges and cuts out the bias row, the combine call.

  The product call leaves the product of the layer's input with its weight matrix and touches nothing else that is
  read later; the stretch gathers the product's rows at the edges' sources, scales them by the normalised weights and
  adds them into the destinations' rows — the one aggregation the reference performs — ; the combine call leaves
  one step of the layer. Each buffer read later is followed through the boundary: unwritten by the stretch, and
  either outside the call's arrays or an input of it, which a call leaves as it found it.
-/
import proofs.«145220_j17600775979603_1_alg».proof.Proof.KernelHost
import proofs.«145220_j17600775979603_1_alg».proof.Proof.Product4
import proofs.«145220_j17600775979603_1_alg».proof.Proof.Combine5
import proofs.«145220_j17600775979603_1_alg».proof.Proof.KernelLayer1
set_option maxRecDepth 16384

noncomputable section

namespace Cert.KernelIdeal.Step2

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- Entering the product call, after the two operations that cut out the layer's weight matrix: what persists, -/
theorem kept_a : Host.Kept (m ((c : Thread nD τ).loc main_arg1)) (m ((c : Thread nD τ).loc main_arg2)) (m ((c : Thread nD τ).loc main_arg3)) (m ((c : Thread nD τ).loc main_arg4)) (W9 m ρ c) where
  hsrc := by show StableHlo.after hostOps4 (W8 m ρ c) (Proc.devRef .tc main_v1) = _; after_results; exact (Step1.kept_d m ρ c).hsrc
  hdst := by show StableHlo.after hostOps4 (W8 m ρ c) (Proc.devRef .tc main_v3) = _; after_results; exact (Step1.kept_d m ρ c).hdst
  hnorm := by show StableHlo.after hostOps4 (W8 m ρ c) (Proc.devRef .tc main_v25) = _; after_results; exact (Step1.kept_d m ρ c).hnorm
  hcol := by show StableHlo.after hostOps4 (W8 m ρ c) (Proc.devRef .tc main_v27) = _; after_results; exact (Step1.kept_d m ρ c).hcol
  hwts := by show StableHlo.after hostOps4 (W8 m ρ c) (Proc.devRef .tc main_v28) = _; after_results; exact (Step1.kept_d m ρ c).hwts
  hbs := by show StableHlo.after hostOps4 (W8 m ρ c) (Proc.devRef .tc main_arg4) = _; after_results; exact (Step1.kept_d m ρ c).hbs
/-- the layer's input (the previous layer's result, untouched), -/
theorem input_a : W9 m ρ c (Proc.devRef .tc main_v68) = Host.feat2 m c := by
  show StableHlo.after hostOps4 (W8 m ρ c) (Proc.devRef .tc main_v68) = _; after_results; exact Step1.output_d m ρ c
/-- and its weight matrix. -/
theorem weights_a : W9 m ρ c (Proc.devRef .tc main_v70) = Host.w2 (m ((c : Thread nD τ).loc main_arg3)) := by
  show StableHlo.after hostOps4 (W8 m ρ c) (Proc.devRef .tc main_v70) = _; after_results
  rw [(Step1.kept_d m ρ c).hwts]; rfl

/-- Leaving the product call: the product of the input with the weights; -/
theorem product_b : W10 m ρ c (Proc.devRef .tc main_v71)
    = RowsProduct.prod 100000 128 128 (Host.feat2 m c) (Host.w2 (m ((c : Thread nD τ).loc main_arg3))) := by
  refine (W10_arr m ρ c 2).trans ((Product4.final (V9 m ρ) c).trans ?_)
  show RowsProduct.prod 100000 128 128 (W9 m ρ c (Proc.devRef .tc main_v68)) (W9 m ρ c (Proc.devRef .tc main_v70)) = _
  rw [input_a m ρ c, weights_a m ρ c]
/-- the input, an operand of the call, as it was; -/
theorem input_b : W10 m ρ c (Proc.devRef .tc main_v68) = Host.feat2 m c :=
  ((W10_arr m ρ c 0).trans (((dat4 (V9 m ρ) c).arrAt_in 0 rfl _).trans (A_eq4 (V9 m ρ) c 0))).trans (input_a m ρ c)
/-- what persists, outside the call's arrays. -/
theorem kept_b : Host.Kept (m ((c : Thread nD τ).loc main_arg1)) (m ((c : Thread nD τ).loc main_arg2)) (m ((c : Thread nD τ).loc main_arg3)) (m ((c : Thread nD τ).loc main_arg4)) (W10 m ρ c) where
  hsrc := (W10_of_ne m ρ c main_v1 (by decide)).trans (kept_a m ρ c).hsrc
  hdst := (W10_of_ne m ρ c main_v3 (by decide)).trans (kept_a m ρ c).hdst
  hnorm := (W10_of_ne m ρ c main_v25 (by decide)).trans (kept_a m ρ c).hnorm
  hcol := (W10_of_ne m ρ c main_v27 (by decide)).trans (kept_a m ρ c).hcol
  hwts := (W10_of_ne m ρ c main_v28 (by decide)).trans (kept_a m ρ c).hwts
  hbs := (W10_of_ne m ρ c main_arg4 (by decide)).trans (kept_a m ρ c).hbs

/-- Entering the combine call, after the aggregation's stretch: what persists, -/
theorem kept_c : Host.Kept (m ((c : Thread nD τ).loc main_arg1)) (m ((c : Thread nD τ).loc main_arg2)) (m ((c : Thread nD τ).loc main_arg3)) (m ((c : Thread nD τ).loc main_arg4)) (W11 m ρ c) where
  hsrc := by show StableHlo.after hostOps5 (W10 m ρ c) (Proc.devRef .tc main_v1) = _; after_results; exact (kept_b m ρ c).hsrc
  hdst := by show StableHlo.after hostOps5 (W10 m ρ c) (Proc.devRef .tc main_v3) = _; after_results; exact (kept_b m ρ c).hdst
  hnorm := by show StableHlo.after hostOps5 (W10 m ρ c) (Proc.devRef .tc main_v25) = _; after_results; exact (kept_b m ρ c).hnorm
  hcol := by show StableHlo.after hostOps5 (W10 m ρ c) (Proc.devRef .tc main_v27) = _; after_results; exact (kept_b m ρ c).hcol
  hwts := by show StableHlo.after hostOps5 (W10 m ρ c) (Proc.devRef .tc main_v28) = _; after_results; exact (kept_b m ρ c).hwts
  hbs := by show StableHlo.after hostOps5 (W10 m ρ c) (Proc.devRef .tc main_arg4) = _; after_results; exact (kept_b m ρ c).hbs
/-- the product and the input, untouched, -/
theorem product_c : W11 m ρ c (Proc.devRef .tc main_v71)
    = RowsProduct.prod 100000 128 128 (Host.feat2 m c) (Host.w2 (m ((c : Thread nD τ).loc main_arg3))) := by
  show StableHlo.after hostOps5 (W10 m ρ c) (Proc.devRef .tc main_v71) = _; after_results; exact product_b m ρ c
theorem input_c : W11 m ρ c (Proc.devRef .tc main_v68) = Host.feat2 m c := by
  show StableHlo.after hostOps5 (W10 m ρ c) (Proc.devRef .tc main_v68) = _; after_results; exact input_b m ρ c
set_option maxHeartbeats 1000000 in
/-- the product aggregated over the edges, -/
theorem agg_c : W11 m ρ c (Proc.devRef .tc main_v84)
    = Cert.ReferenceIdeal.Graph.agg (m ((c : Thread nD τ).loc main_arg1)) (m ((c : Thread nD τ).loc main_arg2)) (RowsProduct.prod 100000 128 128 (Host.feat2 m c) (Host.w2 (m ((c : Thread nD τ).loc main_arg3)))) := by
  show StableHlo.after hostOps5 (W10 m ρ c) (Proc.devRef .tc main_v84) = _; after_results_simp
  rw [(kept_b m ρ c).hsrc, (kept_b m ρ c).hdst, (kept_b m ρ c).hnorm, product_b m ρ c]; rfl
/-- and the layer's bias row. -/
theorem bias_c : W11 m ρ c (Proc.devRef .tc main_v87) = Host.bias2 (m ((c : Thread nD τ).loc main_arg4)) := by
  show StableHlo.after hostOps5 (W10 m ρ c) (Proc.devRef .tc main_v87) = _; after_results
  rw [(kept_b m ρ c).hbs]; rfl

/-- Leaving the combine call: one more layer of the kernel; -/
theorem output_d : W12 m ρ c (Proc.devRef .tc main_v88) = Host.feat3 m c := by
  refine (W12_arr m ρ c 5).trans ((Combine5.final (V11 m ρ) c).trans ?_)
  show Gcn.combine (W11 m ρ c (Proc.devRef .tc main_v71)) (W11 m ρ c (Proc.devRef .tc main_v84))
    (W11 m ρ c (Proc.devRef .tc main_v27)) (W11 m ρ c (Proc.devRef .tc main_v87)) (Ideal.ofBits .f32 0x00000000#32)
    (W11 m ρ c (Proc.devRef .tc main_v68)) = _
  rw [product_c m ρ c, agg_c m ρ c, (kept_c m ρ c).hcol, bias_c m ρ c, input_c m ρ c]; rfl
/-- what persists: the self-loop column is an operand of the call, the others lie outside its arrays. -/
theorem kept_d : Host.Kept (m ((c : Thread nD τ).loc main_arg1)) (m ((c : Thread nD τ).loc main_arg2)) (m ((c : Thread nD τ).loc main_arg3)) (m ((c : Thread nD τ).loc main_arg4)) (W12 m ρ c) where
  hsrc := (W12_of_ne m ρ c main_v1 (by decide)).trans (kept_c m ρ c).hsrc
  hdst := (W12_of_ne m ρ c main_v3 (by decide)).trans (kept_c m ρ c).hdst
  hnorm := (W12_of_ne m ρ c main_v25 (by decide)).trans (kept_c m ρ c).hnorm
  hcol := ((W12_arr m ρ c 2).trans (((dat5 (V11 m ρ) c).arrAt_in 2 rfl _).trans (A_eq5 (V11 m ρ) c 2))).trans (kept_c m ρ c).hcol
  hwts := (W12_of_ne m ρ c main_v28 (by decide)).trans (kept_c m ρ c).hwts
  hbs := (W12_of_ne m ρ c main_arg4 (by decide)).trans (kept_c m ρ c).hbs

end Cert.KernelIdeal.Step2

end
-- ==== Proof.KernelLayer3.lean ====
/-
  Layer 4 of the kernel, boundary by boundary: the product call, the stretch of host operations that aggregates
  the product over the edges and cuts out the bias row, the combine call.

  The product call leaves the product of the layer's input with its weight matrix and touches nothing else that is
  read later; the stretch gathers the product's rows at the edges' sources, scales them by the normalised weights and
  adds them into the destinations' rows — the one aggregation the reference performs — ; the combine call leaves
  one step of the layer. Each buffer read later is followed through the boundary: unwritten by the stretch, and
  either outside the call's arrays or an input of it, which a call leaves as it found it.
-/
import proofs.«145220_j17600775979603_1_alg».proof.Proof.KernelHost
import proofs.«145220_j17600775979603_1_alg».proof.Proof.Product6
import proofs.«145220_j17600775979603_1_alg».proof.Proof.Combine7
import proofs.«145220_j17600775979603_1_alg».proof.Proof.KernelLayer2
set_option maxRecDepth 16384
set_option maxHeartbeats 1000000

noncomputable section

namespace Cert.KernelIdeal.Step3

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- Entering the product call, after the two operations that cut out the layer's weight matrix: what persists, -/
theorem kept_a : Host.Kept (m ((c : Thread nD τ).loc main_arg1)) (m ((c : Thread nD τ).loc main_arg2)) (m ((c : Thread nD τ).loc main_arg3)) (m ((c : Thread nD τ).loc main_arg4)) (W13 m ρ c) where
  hsrc := by show StableHlo.after hostOps6 (W12 m ρ c) (Proc.devRef .tc main_v1) = _; after_results; exact (Step2.kept_d m ρ c).hsrc
  hdst := by show StableHlo.after hostOps6 (W12 m ρ c) (Proc.devRef .tc main_v3) = _; after_results; exact (Step2.kept_d m ρ c).hdst
  hnorm := by show StableHlo.after hostOps6 (W12 m ρ c) (Proc.devRef .tc main_v25) = _; after_results; exact (Step2.kept_d m ρ c).hnorm
  hcol := by show StableHlo.after hostOps6 (W12 m ρ c) (Proc.devRef .tc main_v27) = _; after_results; exact (Step2.kept_d m ρ c).hcol
  hwts := by show StableHlo.after hostOps6 (W12 m ρ c) (Proc.devRef .tc main_v28) = _; after_results; exact (Step2.kept_d m ρ c).hwts
  hbs := by show StableHlo.after hostOps6 (W12 m ρ c) (Proc.devRef .tc main_arg4) = _; after_results; exact (Step2.kept_d m ρ c).hbs
/-- the layer's input (the previous layer's result, untouched), -/
theorem input_a : W13 m ρ c (Proc.devRef .tc main_v88) = Host.feat3 m c := by
  show StableHlo.after hostOps6 (W12 m ρ c) (Proc.devRef .tc main_v88) = _; after_results; exact Step2.output_d m ρ c
/-- and its weight matrix. -/
theorem weights_a : W13 m ρ c (Proc.devRef .tc main_v90) = Host.w3 (m ((c : Thread nD τ).loc main_arg3)) := by
  show StableHlo.after hostOps6 (W12 m ρ c) (Proc.devRef .tc main_v90) = _; after_results
  rw [(Step2.kept_d m ρ c).hwts]; rfl

/-- Leaving the product call: the product of the input with the weights; -/
theorem product_b : W14 m ρ c (Proc.devRef .tc main_v91)
    = RowsProduct.prod 100000 128 128 (Host.feat3 m c) (Host.w3 (m ((c : Thread nD τ).loc main_arg3))) := by
  refine (W14_arr m ρ c 2).trans ((Product6.final (V13 m ρ) c).trans ?_)
  show RowsProduct.prod 100000 128 128 (W13 m ρ c (Proc.devRef .tc main_v88)) (W13 m ρ c (Proc.devRef .tc main_v90)) = _
  rw [input_a m ρ c, weights_a m ρ c]
/-- the input, an operand of the call, as it was; -/
theorem input_b : W14 m ρ c (Proc.devRef .tc main_v88) = Host.feat3 m c :=
  ((W14_arr m ρ c 0).trans (((dat6 (V13 m ρ) c).arrAt_in 0 rfl _).trans (A_eq6 (V13 m ρ) c 0))).trans (input_a m ρ c)
/-- what persists, outside the call's arrays. -/
theorem kept_b : Host.Kept (m ((c : Thread nD τ).loc main_arg1)) (m ((c : Thread nD τ).loc main_arg2)) (m ((c : Thread nD τ).loc main_arg3)) (m ((c : Thread nD τ).loc main_arg4)) (W14 m ρ c) where
  hsrc := (W14_of_ne m ρ c main_v1 (by decide)).trans (kept_a m ρ c).hsrc
  hdst := (W14_of_ne m ρ c main_v3 (by decide)).trans (kept_a m ρ c).hdst
  hnorm := (W14_of_ne m ρ c main_v25 (by decide)).trans (kept_a m ρ c).hnorm
  hcol := (W14_of_ne m ρ c main_v27 (by decide)).trans (kept_a m ρ c).hcol
  hwts := (W14_of_ne m ρ c main_v28 (by decide)).trans (kept_a m ρ c).hwts
  hbs := (W14_of_ne m ρ c main_arg4 (by decide)).trans (kept_a m ρ c).hbs

/-- Entering the combine call, after the aggregation's stretch: what persists, -/
theorem kept_c : Host.Kept (m ((c : Thread nD τ).loc main_arg1)) (m ((c : Thread nD τ).loc main_arg2)) (m ((c : Thread nD τ).loc main_arg3)) (m ((c : Thread nD τ).loc main_arg4)) (W15 m ρ c) where
  hsrc := by show StableHlo.after hostOps7 (W14 m ρ c) (Proc.devRef .tc main_v1) = _; after_results; exact (kept_b m ρ c).hsrc
  hdst := by show StableHlo.after hostOps7 (W14 m ρ c) (Proc.devRef .tc main_v3) = _; after_results; exact (kept_b m ρ c).hdst
  hnorm := by show StableHlo.after hostOps7 (W14 m ρ c) (Proc.devRef .tc main_v25) = _; after_results; exact (kept_b m ρ c).hnorm
  hcol := by show StableHlo.after hostOps7 (W14 m ρ c) (Proc.devRef .tc main_v27) = _; after_results; exact (kept_b m ρ c).hcol
  hwts := by show StableHlo.after hostOps7 (W14 m ρ c) (Proc.devRef .tc main_v28) = _; after_results; exact (kept_b m ρ c).hwts
  hbs := by show StableHlo.after hostOps7 (W14 m ρ c) (Proc.devRef .tc main_arg4) = _; after_results; exact (kept_b m ρ c).hbs
/-- the product and the input, untouched, -/
theorem product_c : W15 m ρ c (Proc.devRef .tc main_v91)
    = RowsProduct.prod 100000 128 128 (Host.feat3 m c) (Host.w3 (m ((c : Thread nD τ).loc main_arg3))) := by
  show StableHlo.after hostOps7 (W14 m ρ c) (Proc.devRef .tc main_v91) = _; after_results; exact product_b m ρ c
theorem input_c : W15 m ρ c (Proc.devRef .tc main_v88) = Host.feat3 m c := by
  show StableHlo.after hostOps7 (W14 m ρ c) (Proc.devRef .tc main_v88) = _; after_results; exact input_b m ρ c
set_option maxHeartbeats 1000000 in
/-- the product aggregated over the edges, -/
theorem agg_c : W15 m ρ c (Proc.devRef .tc main_v104)
    = Cert.ReferenceIdeal.Graph.agg (m ((c : Thread nD τ).loc main_arg1)) (m ((c : Thread nD τ).loc main_arg2)) (RowsProduct.prod 100000 128 128 (Host.feat3 m c) (Host.w3 (m ((c : Thread nD τ).loc main_arg3)))) := by
  show StableHlo.after hostOps7 (W14 m ρ c) (Proc.devRef .tc main_v104) = _; after_results_simp
  rw [(kept_b m ρ c).hsrc, (kept_b m ρ c).hdst, (kept_b m ρ c).hnorm, product_b m ρ c]; rfl
/-- and the layer's bias row. -/
theorem bias_c : W15 m ρ c (Proc.devRef .tc main_v107) = Host.bias3 (m ((c : Thread nD τ).loc main_arg4)) := by
  show StableHlo.after hostOps7 (W14 m ρ c) (Proc.devRef .tc main_v107) = _; after_results
  rw [(kept_b m ρ c).hbs]; rfl

/-- Leaving the combine call: one more layer of the kernel; -/
theorem output_d : W16 m ρ c (Proc.devRef .tc main_v108) = Host.feat4 m c := by
  refine (W16_arr m ρ c 5).trans ((Combine7.final (V15 m ρ) c).trans ?_)
  show Gcn.combine (W15 m ρ c (Proc.devRef .tc main_v91)) (W15 m ρ c (Proc.devRef .tc main_v104))
    (W15 m ρ c (Proc.devRef .tc main_v27)) (W15 m ρ c (Proc.devRef .tc main_v107)) (Ideal.ofBits .f32 0x00000000#32)
    (W15 m ρ c (Proc.devRef .tc main_v88)) = _
  rw [product_c m ρ c, agg_c m ρ c, (kept_c m ρ c).hcol, bias_c m ρ c, input_c m ρ c]; rfl
/-- what persists: the self-loop column is an operand of the call, the others lie outside its arrays. -/
theorem kept_d : Host.Kept (m ((c : Thread nD τ).loc main_arg1)) (m ((c : Thread nD τ).loc main_arg2)) (m ((c : Thread nD τ).loc main_arg3)) (m ((c : Thread nD τ).loc main_arg4)) (W16 m ρ c) where
  hsrc := (W16_of_ne m ρ c main_v1 (by decide)).trans (kept_c m ρ c).hsrc
  hdst := (W16_of_ne m ρ c main_v3 (by decide)).trans (kept_c m ρ c).hdst
  hnorm := (W16_of_ne m ρ c main_v25 (by decide)).trans (kept_c m ρ c).hnorm
  hcol := ((W16_arr m ρ c 2).trans (((dat7 (V15 m ρ) c).arrAt_in 2 rfl _).trans (A_eq7 (V15 m ρ) c 2))).trans (kept_c m ρ c).hcol
  hwts := (W16_of_ne m ρ c main_v28 (by decide)).trans (kept_c m ρ c).hwts
  hbs := (W16_of_ne m ρ c main_arg4 (by decide)).trans (kept_c m ρ c).hbs

end Cert.KernelIdeal.Step3

end
-- ==== Proof.LibRowVector.lean ====
/-
  A vector made a row, read at coordinates.

  A bias or any per-column vector [n] often reaches a kernel as a row [1, n] (a reshape that adds a leading unit
  axis). Read at (0, q) the row's entry is the vector's entry q: in row-major order the position of (0, q) in
  [1, n] is 0 * n + q = q, the position of q in [n]. This is the row counterpart of the kept-axis column
  [a] -> [a, 1] read at (r, 0).
-/
import Idealize.ShloMosaic.Lib.ValueLayout
import Idealize.ShloMosaic.Lib.Pipeline.Value

namespace RowVector

open Idealize.ShloMosaic Idealize.ShloMosaic.ValueIdx

/-- A vector [n] cast to a row [1, n] reads, at (u, q), the vector's entry q, whatever the unit coordinate u. -/
theorem shapeCast_n_1n_apply {α : Type} {n : ℕ} (v : (⟨1, ![n]⟩ : Shape).Idx → α)
    (h : (⟨1, ![n]⟩ : Shape).ShapeCasts ⟨2, ![1, n]⟩) (u : Fin 1) (q : Fin n) :
    shapeCast ⟨2, ![1, n]⟩ v h (ix2 u q) = v (ix1 q) :=
  shapeCast_apply v h _ _ (by
    have hu : u.val = 0 := by omega
    rw [Shape.rowMajor_val_two, Shape.rowMajor_val_one]
    show q.val = u.val * n + q.val
    rw [hu, Nat.zero_mul, Nat.zero_add])

end RowVector
-- ==== Proof.KernelBridge.lean ====
/-
  One step of the kernel is one layer.

  The kernel keeps the self-loop coefficient as a column [100000, 1] and a layer's bias as a row [1, 128]; read at
  (r, 0) and (0, c) they are the coefficient's entry r and the bias's entry c. The kernel's weight matrix is cut
  out of the weights after their change of float format, which is the identity on the extended reals, so it is
  the reference's slice. With these readings the kernel's entrywise combination of the product and its aggregation
  is, entry by entry, the layer function `Gcn.layer` over the reference's own coefficient, weight slice and bias.
-/
import proofs.«145220_j17600775979603_1_alg».proof.Proof.KernelHost
import proofs.«145220_j17600775979603_1_alg».proof.Proof.LibKeepdims
import proofs.«145220_j17600775979603_1_alg».proof.Proof.LibRowVector
import Idealize.ShloMosaic.Lib.Pipeline.Value
import Idealize.ShloMosaic.Lib.ValueLayout
set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

open Cert.ReferenceIdeal.Read

/-- The self-loop column at (r, 0) is the coefficient at r. -/
theorem selfCol_apply (a1 : S2x1600000.Idx → BitVec 32) (a2 : S1600000.Idx → EReal) (r : Fin 100000) :
    Host.selfCol a1 a2 (ix2 r (0 : Fin 1)) = Host.selfCoef a1 a2 (ix1 r) :=
  Keepdims.shapeCast_a_a1_apply _ _ r 0

/-- Layer 1: the kernel's weight matrix is the reference's slice, and its bias row at (0, q) the reference's bias at q. -/
theorem w0_eq (a3 : S4x128x128.Idx → EReal) : Host.w0 a3 = val_main_v28 (F := Ideal) a3 := rfl
theorem bias0_apply (a4 : S4x128.Idx → EReal) (q : Fin 128) :
    Host.bias0 a4 (ix2 (0 : Fin 1) q) = val_main_v48 (F := Ideal) a4 (ix1 q) :=
  RowVector.shapeCast_n_1n_apply (val_main_v48 (F := Ideal) a4) shapeCasts_S128_S1x128 0 q
/-- Layer 2: the kernel's weight matrix is the reference's slice, and its bias row at (0, q) the reference's bias at q. -/
theorem w1_eq (a3 : S4x128x128.Idx → EReal) : Host.w1 a3 = val_main_v55 (F := Ideal) a3 := rfl
theorem bias1_apply (a4 : S4x128.Idx → EReal) (q : Fin 128) :
    Host.bias1 a4 (ix2 (0 : Fin 1) q) = val_main_v75 (F := Ideal) a4 (ix1 q) :=
  RowVector.shapeCast_n_1n_apply (val_main_v75 (F := Ideal) a4) shapeCasts_S128_S1x128 0 q
/-- Layer 3: the kernel's weight matrix is the reference's slice, and its bias row at (0, q) the reference's bias at q. -/
theorem w2_eq (a3 : S4x128x128.Idx → EReal) : Host.w2 a3 = val_main_v82 (F := Ideal) a3 := rfl
theorem bias2_apply (a4 : S4x128.Idx → EReal) (q : Fin 128) :
    Host.bias2 a4 (ix2 (0 : Fin 1) q) = val_main_v102 (F := Ideal) a4 (ix1 q) :=
  RowVector.shapeCast_n_1n_apply (val_main_v102 (F := Ideal) a4) shapeCasts_S128_S1x128 0 q
/-- Layer 4: the kernel's weight matrix is the reference's slice, and its bias row at (0, q) the reference's bias at q. -/
theorem w3_eq (a3 : S4x128x128.Idx → EReal) : Host.w3 a3 = val_main_v109 (F := Ideal) a3 := rfl
theorem bias3_apply (a4 : S4x128.Idx → EReal) (q : Fin 128) :
    Host.bias3 a4 (ix2 (0 : Fin 1) q) = val_main_v129 (F := Ideal) a4 (ix1 q) :=
  RowVector.shapeCast_n_1n_apply (val_main_v129 (F := Ideal) a4) shapeCasts_S128_S1x128 0 q

/-- One step over a weight matrix and a bias row is the layer over the same matrix and the bias the row spells. -/
theorem step_eq_layer (a1 : S2x1600000.Idx → BitVec 32) (a2 : S1600000.Idx → EReal) (w : S128x128.Idx → EReal)
    (bK : S1x128.Idx → EReal) (bR : S128.Idx → EReal) (hb : ∀ q : Fin 128, bK (ix2 (0 : Fin 1) q) = bR (ix1 q))
    (h : S100000x128.Idx → EReal) :
    Host.step a1 a2 w bK h
      = Gcn.layer (Cert.ReferenceIdeal.Graph.agg a1 a2) (Host.selfCoef a1 a2) w bR Cert.ReferenceIdeal.Graph.floor0 h := by
  funext j
  obtain ⟨r, q, rfl⟩ : ∃ (r : Fin 100000) (q : Fin 128), j = ix2 r q := ⟨j 0, j 1, eq_ix2 j⟩
  show max ((Cert.ReferenceIdeal.Graph.agg a1 a2 (RowsProduct.prod 100000 128 128 h w) (ix2 r q) : EReal)
      + ((RowsProduct.prod 100000 128 128 h w (ix2 r q) : EReal) * Host.selfCol a1 a2 (ix2 r (0 : Fin 1)) + bK (ix2 (0 : Fin 1) q)))
      (Ideal.ofBits .f32 0x00000000#32) + h (ix2 r q)
    = max ((Cert.ReferenceIdeal.Graph.agg a1 a2 (RowsProduct.prod 100000 128 128 h w) (ix2 r q) : EReal)
      + ((RowsProduct.prod 100000 128 128 h w (ix2 r q) : EReal) * Host.selfCoef a1 a2 (ix1 r) + bR (ix1 q)))
      (Ideal.ofBits .f32 0x00000000#32) + h (ix2 r q)
  rw [selfCol_apply, hb]

/-- The four layers applied to the input features, over the reference's own pieces of the launch memory. -/
def result (m : (ℓ : Loc nD τ sig) → Buf (Elt Ideal) ℓ) (c : Dev nD) : S100000x128.Idx → EReal :=
  Gcn.layer (Cert.ReferenceIdeal.Graph.agg (m ((c : Thread nD τ).loc main_arg1)) (m ((c : Thread nD τ).loc main_arg2))) (val_main_v26 (F := Ideal) (m ((c : Thread nD τ).loc main_arg1)) (m ((c : Thread nD τ).loc main_arg2))) (val_main_v109 (F := Ideal) (m ((c : Thread nD τ).loc main_arg3))) (val_main_v129 (F := Ideal) (m ((c : Thread nD τ).loc main_arg4))) Cert.ReferenceIdeal.Graph.floor0
      (Gcn.layer (Cert.ReferenceIdeal.Graph.agg (m ((c : Thread nD τ).loc main_arg1)) (m ((c : Thread nD τ).loc main_arg2))) (val_main_v26 (F := Ideal) (m ((c : Thread nD τ).loc main_arg1)) (m ((c : Thread nD τ).loc main_arg2))) (val_main_v82 (F := Ideal) (m ((c : Thread nD τ).loc main_arg3))) (val_main_v102 (F := Ideal) (m ((c : Thread nD τ).loc main_arg4))) Cert.ReferenceIdeal.Graph.floor0
      (Gcn.layer (Cert.ReferenceIdeal.Graph.agg (m ((c : Thread nD τ).loc main_arg1)) (m ((c : Thread nD τ).loc main_arg2))) (val_main_v26 (F := Ideal) (m ((c : Thread nD τ).loc main_arg1)) (m ((c : Thread nD τ).loc main_arg2))) (val_main_v55 (F := Ideal) (m ((c : Thread nD τ).loc main_arg3))) (val_main_v75 (F := Ideal) (m ((c : Thread nD τ).loc main_arg4))) Cert.ReferenceIdeal.Graph.floor0
      (Gcn.layer (Cert.ReferenceIdeal.Graph.agg (m ((c : Thread nD τ).loc main_arg1)) (m ((c : Thread nD τ).loc main_arg2))) (val_main_v26 (F := Ideal) (m ((c : Thread nD τ).loc main_arg1)) (m ((c : Thread nD τ).loc main_arg2))) (val_main_v28 (F := Ideal) (m ((c : Thread nD τ).loc main_arg3))) (val_main_v48 (F := Ideal) (m ((c : Thread nD τ).loc main_arg4))) Cert.ReferenceIdeal.Graph.floor0
      ((m ((c : Thread nD τ).loc main_arg0))))))

/-- The kernel's four steps are the four layers. -/
theorem feat4_eq (m : (ℓ : Loc nD τ sig) → Buf (Elt Ideal) ℓ) (c : Dev nD) : Host.feat4 m c = result m c := by
  unfold Host.feat4 Host.feat3 Host.feat2 Host.feat1 Host.feat0 result
  rw [step_eq_layer _ _ _ _ _ (bias3_apply _), step_eq_layer _ _ _ _ _ (bias2_apply _),
    step_eq_layer _ _ _ _ _ (bias1_apply _), step_eq_layer _ _ _ _ _ (bias0_apply _)]
  rfl

end Cert.KernelIdeal.Bridge

end
-- ==== Proof.RefLayers.lean ====
/-
  The reference's four graph-convolution layers, each recognised as the one function `Gcn.layer`.

  One layer of the reference, for its input h, weights w, bias b, the self-loop coefficient sn over the nodes and the
  aggregation A over the edges, computes in this order

      t = h · w,   u = (A t + t * S) + B,   max u Z + h,

  where S repeats sn along the 128 features (sn made a column [100000, 1], the column repeated), B repeats b along
  the 100000 nodes (b made a row [1, 128], the row repeated) and Z is the zero word everywhere. Read at an entry
  (r, c) this is max ((A t (r, c) + t (r, c) * sn r) + b c) 0 + h (r, c): every operation but the product and the
  aggregation acts entry by entry, S (r, c) = sn r and B (r, c) = b c. Regrouping the three summands under the
  maximum (addition on the extended reals is associative) gives `Gcn.layer A sn w b 0 h` at (r, c).

  The reference's four layers are four copies of this expression: the output of one is the input of the next, the
  weights and the bias are the layer's slices of the stacked arrays, and the aggregation, the self-loop coefficient
  and the zero are re-derived in every layer from the same arguments by the same operations, so they are the same
  functions.
-/
import proofs.«145220_j17600775979603_1_alg».proof.Proof.Gen.ReferenceIdeal.Read
import proofs.«145220_j17600775979603_1_alg».proof.Proof.Layer
import proofs.«145220_j17600775979603_1_alg».proof.Proof.RefAgg
import Idealize.ShloMosaic.Lib.ValueIdx
import Idealize.ShloMosaic.Lib.Pipeline.Value

noncomputable section

namespace Cert.ReferenceIdeal.Layers

open Cert.ReferenceIdeal Cert.ReferenceIdeal.Gen Cert.ReferenceIdeal.Read Cert.ReferenceIdeal.Graph
  Idealize.ShloMosaic Idealize.ShloMosaic.ValueIdx

/-! ## The two repeated vectors and the zero, read at an entry -/

/-- A vector over the nodes repeated along the features: made a column [100000, 1], the column repeated 128 times. -/
def nodeCols (s : FVec Ideal S100000 .f32) : FVec Ideal S100000x128 .f32 :=
  broadcastInDim S100000x128 ![0, 1] bcast_S100000x1_S100000x128_0_1
    (broadcastInDim S100000x1 ![0] bcast_S100000_S100000x1_0 s)

/-- A vector over the features repeated along the nodes: made a row [1, 128], the row repeated 100000 times. -/
def featRows (b : FVec Ideal S128 .f32) : FVec Ideal S100000x128 .f32 :=
  broadcastInDim S100000x128 ![0, 1] bcast_S1x128_S100000x128_0_1
    (broadcastInDim S1x128 ![1] bcast_S128_S1x128_1 b)

/-- The zero word at every entry. -/
def zeros : FVec Ideal S100000x128 .f32 :=
  broadcastInDim S100000x128 ![] bcast_S_S100000x128 (constant S_ .f32 0x00000000#32)

/-- The repeated node vector at (r, c) is the vector's entry r: the column keeps the row coordinate and has the one
    column 0; the vector is read at the column's row. -/
theorem nodeCols_apply (s : FVec Ideal S100000 .f32) (j : S100000x128.Idx) : nodeCols s j = s (ix1 (j 0)) :=
  (broadcastInDim_apply _ bcast_S100000x1_S100000x128_0_1 _ j (ix2 (j 0) (0 : Fin 1)) (fun a => match a with
    | ⟨0, _⟩ => (if_neg (by decide : ¬(100000 : Nat) = 1)).symm
    | ⟨1, _⟩ => (if_pos rfl).symm)).trans
  (broadcastInDim_apply _ bcast_S100000_S100000x1_0 s (ix2 (j 0) (0 : Fin 1)) (ix1 (j 0)) (fun a => match a with
    | ⟨0, _⟩ => (if_neg (by decide : ¬(100000 : Nat) = 1)).symm))

/-- The repeated feature vector at (r, c) is the vector's entry c: the row has the one row 0 and keeps the column
    coordinate; the vector is read at the row's column. -/
theorem featRows_apply (b : FVec Ideal S128 .f32) (j : S100000x128.Idx) : featRows b j = b (ix1 (j 1)) :=
  (broadcastInDim_apply _ bcast_S1x128_S100000x128_0_1 _ j (ix2 (0 : Fin 1) (j 1)) (fun a => match a with
    | ⟨0, _⟩ => (if_pos rfl).symm
    | ⟨1, _⟩ => (if_neg (by decide : ¬(128 : Nat) = 1)).symm)).trans
  (broadcastInDim_apply _ bcast_S128_S1x128_1 b (ix2 (0 : Fin 1) (j 1)) (ix1 (j 1)) (fun a => match a with
    | ⟨0, _⟩ => (if_neg (by decide : ¬(128 : Nat) = 1)).symm))

/-- Every entry of the zero array is the zero word's value. -/
theorem zeros_apply (j : S100000x128.Idx) : zeros j = floor0 := rfl

/-! ## One layer -/

/-- The reference's expression for one layer is `Gcn.layer`: the host's product is the matrix product, the other
    operations act entry by entry, the two repeated vectors are read at their own coordinate, and the three
    summands under the maximum are regrouped. -/
theorem layer_eq (A : FVec Ideal S100000x128 .f32 → FVec Ideal S100000x128 .f32) (s : FVec Ideal S100000 .f32)
    (b : FVec Ideal S128 .f32) (w : FVec Ideal S128x128 .f32) (h : FVec Ideal S100000x128 .f32) :
    addf (maximumf
        (addf (addf (A (Host.dotGeneral dot_S100000x128_S128x128_S100000x128_1_0_0_1_n_n none h w))
            (mulf (Host.dotGeneral dot_S100000x128_S128x128_S100000x128_1_0_0_1_n_n none h w) (nodeCols s)))
          (featRows b))
        zeros) h
      = Gcn.layer A s w b floor0 h := by
  have e : Host.dotGeneral dot_S100000x128_S128x128_S100000x128_1_0_0_1_n_n none h w
      = RowsProduct.prod 100000 128 128 h w := RowsProduct.hostDot_eq 100000 128 128 h w
  rw [e]
  funext j
  show max ((A (RowsProduct.prod 100000 128 128 h w) j + RowsProduct.prod 100000 128 128 h w j * nodeCols s j)
      + featRows b j) (zeros j) + h j = _
  rw [nodeCols_apply, featRows_apply, zeros_apply]
  exact Gcn.regroup _ _ _ _ _ _

/-! ## The reference's four layers

  Each layer's last stage is the expression of `layer_eq` once its stages are unfolded: the product of the layer's
  input with the layer's weights, aggregated, plus the product times the repeated self-loop coefficient, plus the
  repeated bias, the maximum with the zeros, plus the layer's input. Layers 2 to 4 name their own copies of the
  zero matrix, the index columns, the repeated edge weights, the repeated self-loop coefficient and the zeros; the
  copies are the same operations applied to the same arguments, so they unfold to the same terms. -/

/-- Layer 1: from the input features, with the first slices of the weights and of the bias. -/
theorem layer1 (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S4x128x128, .f32⟩ : BufTy).Contents (Elt Ideal))
    (x4 : (⟨S4x128, .f32⟩ : BufTy).Contents (Elt Ideal)) :
    val_main_v53 (F := Ideal) x0 x1 x2 x3 x4
      = Gcn.layer (Graph.agg x1 x2) (val_main_v26 (F := Ideal) x1 x2) (val_main_v28 (F := Ideal) x3)
          (val_main_v48 (F := Ideal) x4) Graph.floor0 x0 :=
  layer_eq (Graph.agg x1 x2) (val_main_v26 (F := Ideal) x1 x2) (val_main_v48 (F := Ideal) x4) (val_main_v28 (F := Ideal) x3) x0

/-- Layer 2: from layer 1's output, with the second slices. -/
theorem layer2 (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S4x128x128, .f32⟩ : BufTy).Contents (Elt Ideal))
    (x4 : (⟨S4x128, .f32⟩ : BufTy).Contents (Elt Ideal)) :
    val_main_v80 (F := Ideal) x0 x1 x2 x3 x4
      = Gcn.layer (Graph.agg x1 x2) (val_main_v26 (F := Ideal) x1 x2) (val_main_v55 (F := Ideal) x3)
          (val_main_v75 (F := Ideal) x4) Graph.floor0 (val_main_v53 (F := Ideal) x0 x1 x2 x3 x4) :=
  layer_eq (Graph.agg x1 x2) (val_main_v26 (F := Ideal) x1 x2) (val_main_v75 (F := Ideal) x4) (val_main_v55 (F := Ideal) x3)
    (val_main_v53 (F := Ideal) x0 x1 x2 x3 x4)

/-- Layer 3: from layer 2's output, with the third slices. -/
theorem layer3 (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S4x128x128, .f32⟩ : BufTy).Contents (Elt Ideal))
    (x4 : (⟨S4x128, .f32⟩ : BufTy).Contents (Elt Ideal)) :
    val_main_v107 (F := Ideal) x0 x1 x2 x3 x4
      = Gcn.layer (Graph.agg x1 x2) (val_main_v26 (F := Ideal) x1 x2) (val_main_v82 (F := Ideal) x3)
          (val_main_v102 (F := Ideal) x4) Graph.floor0 (val_main_v80 (F := Ideal) x0 x1 x2 x3 x4) :=
  layer_eq (Graph.agg x1 x2) (val_main_v26 (F := Ideal) x1 x2) (val_main_v102 (F := Ideal) x4) (val_main_v82 (F := Ideal) x3)
    (val_main_v80 (F := Ideal) x0 x1 x2 x3 x4)

/-- Layer 4: from layer 3's output, with the fourth slices. -/
theorem layer4 (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S4x128x128, .f32⟩ : BufTy).Contents (Elt Ideal))
    (x4 : (⟨S4x128, .f32⟩ : BufTy).Contents (Elt Ideal)) :
    val_main_v134 (F := Ideal) x0 x1 x2 x3 x4
      = Gcn.layer (Graph.agg x1 x2) (val_main_v26 (F := Ideal) x1 x2) (val_main_v109 (F := Ideal) x3)
          (val_main_v129 (F := Ideal) x4) Graph.floor0 (val_main_v107 (F := Ideal) x0 x1 x2 x3 x4) :=
  layer_eq (Graph.agg x1 x2) (val_main_v26 (F := Ideal) x1 x2) (val_main_v129 (F := Ideal) x4) (val_main_v109 (F := Ideal) x3)
    (val_main_v107 (F := Ideal) x0 x1 x2 x3 x4)

/-! ## The four layers in a row -/

/-- The reference's result is the layer applied four times to the input features, each time with its own slice of
    the weights and of the bias and with the one aggregation, self-loop coefficient and zero: each layer's input is
    the layer before's output. -/
theorem result_eq (x0 : (⟨S100000x128, .f32⟩ : BufTy).Contents (Elt Ideal)) (x1 : (⟨S2x1600000, .i32⟩ : BufTy).Contents (Elt Ideal)) (x2 : (⟨S1600000, .f32⟩ : BufTy).Contents (Elt Ideal)) (x3 : (⟨S4x128x128, .f32⟩ : BufTy).Contents (Elt Ideal)) (x4 : (⟨S4x128, .f32⟩ : BufTy).Contents (Elt Ideal)) :
    val_main_v134 (F := Ideal) x0 x1 x2 x3 x4
      = Gcn.layer (Graph.agg x1 x2) (val_main_v26 (F := Ideal) x1 x2) (val_main_v109 (F := Ideal) x3) (val_main_v129 (F := Ideal) x4) Graph.floor0
         (Gcn.layer (Graph.agg x1 x2) (val_main_v26 (F := Ideal) x1 x2) (val_main_v82 (F := Ideal) x3) (val_main_v102 (F := Ideal) x4) Graph.floor0
           (Gcn.layer (Graph.agg x1 x2) (val_main_v26 (F := Ideal) x1 x2) (val_main_v55 (F := Ideal) x3) (val_main_v75 (F := Ideal) x4) Graph.floor0
             (Gcn.layer (Graph.agg x1 x2) (val_main_v26 (F := Ideal) x1 x2) (val_main_v28 (F := Ideal) x3) (val_main_v48 (F := Ideal) x4) Graph.floor0 x0))) :=
  (layer4 x0 x1 x2 x3 x4).trans (congrArg _ ((layer3 x0 x1 x2 x3 x4).trans (congrArg _ ((layer2 x0 x1 x2 x3 x4).trans
    (congrArg _ (layer1 x0 x1 x2 x3 x4))))))

end Cert.ReferenceIdeal.Layers

end
-- ==== Proof.lean ====
/-
  The certificate of a four-layer graph convolution: a Pallas kernel against its jnp reference, over the extended reals.

  Both programs compute, by the same host operations, the normalised edge weights norm e = dinv (src e) * w e * dinv (dst e)
  and the self-loop coefficient dinv², with dinv = (weighted in-degree + 1)^(-1/2). A layer sends node features h to

      max (A (h W) + (h W) * dinv² + b) 0 + h,

  A the aggregation over the edges (gather the source rows, scale by norm, add into the destination rows). The kernel
  computes h W in a pallas_call tiled over blocks of 5000 rows (its operands' change of float format is the identity
  on the extended reals, and a block of rows of a product is the block of the one product), leaves A to the host, and
  combines in a second row-tiled pallas_call, grouping the sum as A + (t * dinv² + b) where the reference groups
  (A + t * dinv²) + b: addition on the extended reals is associative, infinities included, so nothing needs to be
  finite and the precondition is never opened. The aggregation, the normalisation and the rectifier's zero are the
  same terms on both sides and are never evaluated.

  The three frames are the generated ones (the reference's is its generated run with the result dropped); the ideal
  pass rewrote nothing, so `preserves` is trivial; `algebraic` puts the kernel's run, read boundary by boundary to
  four applications of the layer function, beside the reference's generated run, read stage by stage to the same four.
-/
import proofs.«145220_j17600775979603_1_alg».proof.Defs
import proofs.«145220_j17600775979603_1_alg».proof.Proof.Gen.Kernel
import proofs.«145220_j17600775979603_1_alg».proof.Proof.Gen.Kernel.Frame
import proofs.«145220_j17600775979603_1_alg».proof.Proof.Gen.KernelIdeal
import proofs.«145220_j17600775979603_1_alg».proof.Proof.Gen.KernelIdeal.Frame
import proofs.«145220_j17600775979603_1_alg».proof.Proof.Gen.ReferenceIdeal
import proofs.«145220_j17600775979603_1_alg».proof.Proof.Gen.Pre_finite_inputs
import proofs.«145220_j17600775979603_1_alg».proof.Proof.Gen.ReferenceIdeal.Run
import proofs.«145220_j17600775979603_1_alg».proof.Proof.Gen.ReferenceIdeal.Read
import proofs.«145220_j17600775979603_1_alg».proof.Proof.KernelRun
import proofs.«145220_j17600775979603_1_alg».proof.Proof.KernelLayer3
import proofs.«145220_j17600775979603_1_alg».proof.Proof.KernelBridge
import proofs.«145220_j17600775979603_1_alg».proof.Proof.RefLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the four layers of the input features. -/
theorem algebraic : Cert.algebraic_KernelIdeal_ReferenceIdeal := by
  intro m ρ m' ρ' _ hagree
  refine ⟨fun c => Cert.KernelIdeal.Bridge.result m c, ?_, ?_⟩
  · exact (θ_run Cert.KernelIdeal.defs _ _).mono
      (fun r h c => ⟨((h c).1.trans (Cert.KernelIdeal.Step3.output_d m ρ c)).trans (Cert.KernelIdeal.Bridge.feat4_eq m c), (h c).2⟩)
      (Cert.KernelIdeal.RunV.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v134_eq, Cert.ReferenceIdeal.Layers.result_eq,
      (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
